-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x64 : Shape := ⟨2, ![1, 64]⟩
abbrev S1x40 : Shape := ⟨2, ![1, 40]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S100000x40 : Shape := ⟨2, ![100000, 40]⟩
abbrev S5000x40 : Shape := ⟨2, ![5000, 40]⟩
abbrev S1700000x40 : Shape := ⟨2, ![1700000, 40]⟩

abbrev nBuf : Space → Nat
  | .hbm => 62
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x64, .f32⟩
  | .hbm, ⟨29, _⟩ => ⟨S1x40, .f32⟩
  | .hbm, ⟨30, _⟩ => ⟨S100000x64, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x64, .f32⟩
  | .hbm, ⟨40, _⟩ => ⟨S_, .f32⟩
  | .hbm, ⟨41, _⟩ => ⟨S100000x64, .f32⟩
  | .hbm, ⟨42, _⟩ => ⟨S1700000x1, .i32⟩
  | .hbm, ⟨43, _⟩ => ⟨S100000x64, .f32⟩
  | .hbm, ⟨44, _⟩ => ⟨S100000x40, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x40, .f32⟩
  | .hbm, ⟨54, _⟩ => ⟨S_, .f32⟩
  | .hbm, ⟨55, _⟩ => ⟨S100000x40, .f32⟩
  | .hbm, ⟨56, _⟩ => ⟨S1700000x1, .i32⟩
  | .hbm, ⟨57, _⟩ => ⟨S100000x40, .f32⟩
  | .hbm, ⟨58, _⟩ => ⟨S100000x40, .f32⟩
  | .hbm, ⟨59, _⟩ => ⟨S100000x40, .f32⟩
  | .hbm, ⟨60, _⟩ => ⟨S100000x40, .f32⟩
  | .hbm, ⟨61, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x40, .f32⟩
  | .local _ .vmem, ⟨13, _⟩ => ⟨S5000x40, .f32⟩
  | .local _ .vmem, ⟨14, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S64_S1x64 : S64.ShapeCasts S1x64
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .f32 = 32 ∨ (Rect.block (s := S64x40) S64x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x40.size a ≤ S100000x40.size a
  hwx1_4 : ∀ i : grid1.Coords, EltTy.bits .f32 = 32 ∨ (Rect.block (s := S100000x40) S5000x40.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x40, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x40, .f32⟩
  | .hbm, ⟨112, _⟩ => ⟨S1700000x1, .f32⟩
  | .hbm, ⟨113, _⟩ => ⟨S1700000x40, .f32⟩
  | .hbm, ⟨114, _⟩ => ⟨S1700000x40, .f32⟩
  | .hbm, ⟨115, _⟩ => ⟨S_, .f32⟩
  | .hbm, ⟨116, _⟩ => ⟨S100000x40, .f32⟩
  | .hbm, ⟨117, _⟩ => ⟨S1700000x1, .i32⟩
  | .hbm, ⟨118, _⟩ => ⟨S100000x40, .f32⟩
  | .hbm, ⟨119, _⟩ => ⟨S1x40, .f32⟩
  | .hbm, ⟨120, _⟩ => ⟨S100000x40, .f32⟩
  | .hbm, ⟨121, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run with its result named.

  @main is three stretches of host operations, the first pallas_call, a stretch, the second pallas_call and a last
  stretch.  The contents of every buffer at each of these boundaries is a fold from the launch memory (the generated
  frame module's `W0 … W7`), and the launch theorem for such a program leaves, in every final state, every unscoped buffer
  at the last boundary's contents `W7`.  Read at the result buffer this is the statement below; read at the arguments it
  is the frame.
-/
import proofs.«102439_j89807766159535_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting, with the result buffer at the
    last boundary's contents and the arguments as launched. -/
theorem run_result : θ_run defs (onTc (τ := τ) (main (F := F))) ⟨m, fun _ => 0, ρ⟩ (fun r => ∀ c : Dev nD,
      r.2.mem ((c.tc : Thread nD τ).loc main_v43) = W7 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v43 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.ResultRun

end
-- ==== Proof.LibRowOps.lean ====
/-
  Row operations of a two-axis array read at an index.

  A gather of rows: the operand is n × q, the start indices an m × 1 array of words, and row e of the result is the
  operand's row at the word of e read signed and clamped into 0 … n − 1 (the slice is one whole row, so the clamp's upper
  end is n − 1).  Its rank-1 sibling gathers entries of a vector of n entries.

  An accumulating scatter of rows: update row e is added to operand row i exactly when the word of e, read signed and
  not clamped, is i; the column is kept.  So entry (i, c) of the result is the operand's entry plus the sum, over the
  rows e whose word is i, of update entry (e, c).

  Two facts about extended reals used beside them: a finite sum times a factor that is nonnegative and not ⊤ distributes,
  and the guarded reciprocal square root (0 unless the argument is positive) is nonnegative and never ⊤.
-/
import Idealize.ShloMosaic.Lib.ValueIdx
import Idealize.ShloMosaic.PureOps.Ideal.Laws

noncomputable section

open scoped BigOperators

namespace RowOps

open Idealize.ShloMosaic Idealize.ShloMosaic.ValueIdx

/-- a word read signed, a negative one as 0, capped at n - 1 -/
def clampRow (n : Nat) (hn : 0 < n) {wd : Nat} (x : BitVec wd) : Fin n := ⟨min x.toInt.toNat (n - 1), by omega⟩

/-! ## A gather of rows -/

section GatherRows
variable {α : Type} {n m q wd : Nat}

/-- The dimension numbers of a gather of rows as a literal record over given conditions. -/
abbrev rowGatherDims (n m q : Nat)
    (wf : GatherDims.WF ⟨2, ![n, q]⟩ ⟨2, ![m, 1]⟩ ⟨2, ![m, q]⟩ [1] [0] [] [0] [] 1 ![1, q]) :
    GatherDims ⟨2, ![n, q]⟩ ⟨2, ![m, 1]⟩ ⟨2, ![m, q]⟩ where
  offsetDims := [1]
  collapsedSliceDims := [0]
  operandBatchingDims := []
  startIndicesBatchingDims := []
  startIndexMap := [0]
  indexVectorDim := 1
  sliceSizes := ![1, q]
  wf := wf

/-- The gather of rows read at (e, c), for the literal record: the operand at the clamped word of row e, column c. -/
theorem rowGatherDims_apply (wf : GatherDims.WF ⟨2, ![n, q]⟩ ⟨2, ![m, 1]⟩ ⟨2, ![m, q]⟩ [1] [0] [] [0] [] 1 ![1, q])
    (hn : 0 < n) (x : (⟨2, ![n, q]⟩ : Shape).Idx → α) (idx : IVec (⟨2, ![m, 1]⟩ : Shape) wd) (e : Fin m) (c : Fin q) :
    Host.gather (rowGatherDims n m q wf) x idx (ix2 e c) = x (ix2 (clampRow n hn (idx (ix2 e (0 : Fin 1)))) c) := by
  unfold Host.gather
  congr 1
  funext a
  refine Fin.ext ?_
  match a with
  | ⟨0, _⟩ =>
    show (rowGatherDims n m q wf).start (ix2 e c) idx 0 + (rowGatherDims n m q wf).batchCoord (ix2 e c) 0
      + (rowGatherDims n m q wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n m q wf).startIndexMap from List.mem_singleton.mpr rfl)]
    have hsi : (rowGatherDims n m q wf).siIdx (ix2 e c) ⟨List.idxOf (0 : Fin 2) (rowGatherDims n m q wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims n m q wf).start (ix2 e c) idx 1 + (rowGatherDims n m q wf).batchCoord (ix2 e c) 1
      + (rowGatherDims n m q wf).offCoord (ix2 e c) 1 = c.val
    rw [GatherDims.batchCoord_eq_zero _ _ _ List.not_mem_nil]
    have hst : (rowGatherDims n m q wf).start (ix2 e c) idx 1 = 0 := by
      unfold GatherDims.start
      rw [dif_neg (show ¬ (1 : Fin 2) ∈ ([0] : List (Fin 2)) by decide)]
    have hoff : (rowGatherDims n m q wf).offCoord (ix2 e c) 1 = c.val := by
      unfold GatherDims.offCoord
      have hmem : (1 : Fin 2) ∈ (rowGatherDims n m q wf).sKept :=
        (GatherDims.mem_sKept _ _).mpr ⟨show ¬ (1 : Fin 2) ∈ ([0] : List (Fin 2)) by decide, List.not_mem_nil⟩
      rw [dif_pos hmem]
      rfl
    rw [hst, hoff]; simp

/-- THE GATHER OF ROWS READ AT (e, c), for any record with these fields: the operand at the word of row e, read signed
    and clamped into 0 … n − 1, column c. -/
theorem gather_rows_apply {α : Type} {n m q wd : Nat}
    (gd : GatherDims (⟨2, ![n, q]⟩ : Shape) (⟨2, ![m, 1]⟩ : Shape) (⟨2, ![m, q]⟩ : Shape))
    (ho : gd.offsetDims = [1]) (hc : gd.collapsedSliceDims = [0]) (hob : gd.operandBatchingDims = [])
    (hsb : gd.startIndicesBatchingDims = []) (hm : gd.startIndexMap = [0]) (hv : gd.indexVectorDim = 1)
    (hs : gd.sliceSizes = ![1, q]) (hn : 0 < n)
    (x : (⟨2, ![n, q]⟩ : Shape).Idx → α) (idx : IVec (⟨2, ![m, 1]⟩ : Shape) wd) (e : Fin m) (c : Fin q) :
    Host.gather gd x idx (ix2 e c) = x (ix2 (clampRow n hn (idx (ix2 e (0 : Fin 1)))) c) := by
  obtain ⟨od, cd, ob, sb, sm, iv, ss, wf⟩ := gd
  dsimp only at ho hc hob hsb hm hv hs
  subst ho hc hob hsb hm hv hs
  exact rowGatherDims_apply wf hn x idx e c

end GatherRows

/-! ## An accumulating scatter of rows -/

section ScatterRows
variable {n m q wd : Nat}

/-- The dimension numbers of a scatter of rows as a literal record over given conditions. -/
abbrev rowScatterDims (n m q : Nat) (wf : ScatterDims.WF ⟨2, ![n, q]⟩ ⟨2, ![m, 1]⟩ ⟨2, ![m, q]⟩ [1] [0] [0] 1) :
    ScatterDims ⟨2, ![n, q]⟩ ⟨2, ![m, 1]⟩ ⟨2, ![m, q]⟩ where
  updateWindowDims := [1]
  insertedWindowDims := [0]
  scatterDimsToOperandDims := [0]
  indexVectorDim := 1
  wf := wf

/-- On the row axis, start plus window coordinate of update (e, c') is the word of row e read signed. -/
theorem rowScatterDims_axis0 (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) :
    (rowScatterDims n m q wf).start (ix2 e c') idx 0 + ((rowScatterDims n m q wf).window (ix2 e c') 0 : Nat)
      = (idx (ix2 e (0 : Fin 1))).toInt := by
  have hw : (rowScatterDims n m q wf).window (ix2 e c') 0 = 0 := by
    unfold ScatterDims.window
    have hmem : ¬ (0 : Fin 2) ∈ (rowScatterDims n m q wf).sKept := by
      show ¬ (0 : Fin 2) ∈ (List.finRange 2).filter (· ∉ ([0] : List (Fin 2)))
      decide
    rw [dif_neg hmem]
  have hs : (rowScatterDims n m q wf).start (ix2 e c') idx 0 = (idx (ix2 e (0 : Fin 1))).toInt := by
    unfold ScatterDims.start
    rw [dif_pos (show (0 : Fin 2) ∈ (rowScatterDims n m q wf).scatterDimsToOperandDims from List.mem_cons_self)]
    have hsi : (rowScatterDims n m q wf).siIdx (ix2 e c')
        ⟨List.idxOf (0 : Fin 2) (rowScatterDims n m q wf).scatterDimsToOperandDims,
          List.idxOf_lt_length_iff.2 List.mem_cons_self⟩ = ix2 e (0 : Fin 1) := by
      funext b; refine Fin.ext ?_
      match b with
      | ⟨0, _⟩ => rfl
      | ⟨1, _⟩ => rfl
    rw [hsi]
  rw [hw, hs]; simp

/-- On the column axis, start plus window coordinate of update (e, c') is c'. -/
theorem rowScatterDims_axis1 (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) :
    (rowScatterDims n m q wf).start (ix2 e c') idx 1 + ((rowScatterDims n m q wf).window (ix2 e c') 1 : Nat)
      = (c'.val : Int) := by
  have hw : (rowScatterDims n m q wf).window (ix2 e c') 1 = c'.val := by
    unfold ScatterDims.window
    have hmem : (1 : Fin 2) ∈ (rowScatterDims n m q wf).sKept := by
      show (1 : Fin 2) ∈ (List.finRange 2).filter (· ∉ ([0] : List (Fin 2)))
      decide
    rw [dif_pos hmem]
    rfl
  have hs : (rowScatterDims n m q wf).start (ix2 e c') idx 1 = 0 := by
    unfold ScatterDims.start
    rw [dif_neg (show ¬ (1 : Fin 2) ∈ ([0] : List (Fin 2)) by decide)]
  rw [hw, hs]; simp

/-- Update (e, c') lands on entry (i, c) exactly when the word of row e read signed is i and c' = c: the literal
    record. -/
theorem rowScatterDims_resultIdx (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) (i : Fin n) (c : Fin q) :
    (rowScatterDims n m q wf).resultIdx? (ix2 e c') idx = some (ix2 i c)
      ↔ (idx (ix2 e (0 : Fin 1))).toInt = (i.val : Int) ∧ c' = c := by
  have h0 := rowScatterDims_axis0 wf idx e c'
  have h1 := rowScatterDims_axis1 wf idx e c'
  have hi := i.isLt
  have hc' := c'.isLt
  unfold ScatterDims.resultIdx?
  constructor
  · intro h
    split at h
    · have e0 := congrArg Fin.val (congrFun (Option.some.inj h) 0)
      have e1 := congrArg Fin.val (congrFun (Option.some.inj h) 1)
      change ((rowScatterDims n m q wf).start (ix2 e c') idx 0
        + ((rowScatterDims n m q wf).window (ix2 e c') 0 : Nat)).toNat = i.val at e0
      change ((rowScatterDims n m q wf).start (ix2 e c') idx 1
        + ((rowScatterDims n m q wf).window (ix2 e c') 1 : Nat)).toNat = c.val at e1
      rename_i hall
      have a0 := hall 0
      rw [h0] at e0 a0
      rw [h1] at e1
      exact ⟨by omega, Fin.ext (by omega)⟩
    · cases h
  · rintro ⟨hw, rfl⟩
    have hall : ∀ a : Fin 2, 0 ≤ (rowScatterDims n m q wf).start (ix2 e c') idx a
          + ((rowScatterDims n m q wf).window (ix2 e c') a : Nat)
        ∧ (rowScatterDims n m q wf).start (ix2 e c') idx a + ((rowScatterDims n m q wf).window (ix2 e c') a : Nat)
          < ((⟨2, ![n, q]⟩ : Shape).size a : Nat) := by
      intro a
      match a with
      | ⟨0, _⟩ =>
        show 0 ≤ (rowScatterDims n m q wf).start (ix2 e c') idx 0 + ((rowScatterDims n m q wf).window (ix2 e c') 0 : Nat)
          ∧ (rowScatterDims n m q wf).start (ix2 e c') idx 0 + ((rowScatterDims n m q wf).window (ix2 e c') 0 : Nat)
            < (n : Int)
        rw [h0]; omega
      | ⟨1, _⟩ =>
        show 0 ≤ (rowScatterDims n m q wf).start (ix2 e c') idx 1 + ((rowScatterDims n m q wf).window (ix2 e c') 1 : Nat)
          ∧ (rowScatterDims n m q wf).start (ix2 e c') idx 1 + ((rowScatterDims n m q wf).window (ix2 e c') 1 : Nat)
            < (q : Int)
        rw [h1]; omega
    rw [dif_pos hall]
    congr 1
    funext a
    refine Fin.ext ?_
    match a with
    | ⟨0, _⟩ =>
      show ((rowScatterDims n m q wf).start (ix2 e c') idx 0
        + ((rowScatterDims n m q wf).window (ix2 e c') 0 : Nat)).toNat = i.val
      rw [h0]; omega
    | ⟨1, _⟩ =>
      show ((rowScatterDims n m q wf).start (ix2 e c') idx 1
        + ((rowScatterDims n m q wf).window (ix2 e c') 1 : Nat)).toNat = c'.val
      rw [h1]; omega

/-- UPDATE (e, c') LANDS ON ENTRY (i, c) EXACTLY WHEN THE WORD OF ROW e READ SIGNED IS i AND c' = c, for any record with
    these fields. -/
theorem resultIdx_rows (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (idx : IVec (⟨2, ![m, 1]⟩ : Shape) wd) (e : Fin m) (c' : Fin q) (i : Fin n) (c : Fin q) :
    d.resultIdx? (ix2 e c') idx = some (ix2 i c) ↔ (idx (ix2 e (0 : Fin 1))).toInt = (i.val : Int) ∧ c' = c := by
  obtain ⟨uw, iw, sd, iv, wf⟩ := d
  dsimp only at hu hi hs hv
  subst hu hi hs hv
  exact rowScatterDims_resultIdx wf idx e c' i c

/-- ENTRY (i, c) OF THE ACCUMULATING SCATTER OF ROWS: the operand's entry plus the sum, over the update rows whose word
    read signed is i, of their entries in column c. -/
theorem scatterAdd_rows_apply {n m q wd : Nat}
    (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (x : (⟨2, ![n, q]⟩ : Shape).Idx → EReal) (idx : IVec (⟨2, ![m, 1]⟩ : Shape) wd)
    (upd : (⟨2, ![m, q]⟩ : Shape).Idx → EReal) (i : Fin n) (c : Fin q) :
    Ideal.hostScatterAdd d x idx upd (ix2 i c)
      = x (ix2 i c) + ∑ e ∈ Finset.univ.filter (fun e : Fin m => (idx (ix2 e (0 : Fin 1))).toInt = (i.val : Int)), upd (ix2 e c) := by
  unfold Ideal.hostScatterAdd
  congr 1
  rw [Finset.sum_filter, Finset.sum_filter, sum_idx2]
  refine Finset.sum_congr rfl fun e _ => ?_
  have hterm : ∀ c' : Fin q,
      (if d.resultIdx? (ix2 e c') idx = some (ix2 i c) then upd (ix2 e c') else 0)
        = if c' = c then (if (idx (ix2 e (0 : Fin 1))).toInt = (i.val : Int) then upd (ix2 e c) else 0) else 0 := by
    intro c'
    rw [if_congr (resultIdx_rows d hu hi hs hv idx e c' i c) rfl rfl]
    by_cases hcc : c' = c
    · subst hcc; simp
    · simp [hcc]
  rw [Finset.sum_congr rfl fun c' _ => hterm c']
  simp

end ScatterRows

/-! ## A gather of entries of a vector -/

section GatherVec
variable {α : Type} {n m wd : Nat}

/-- The dimension numbers of a gather of entries of a vector as a literal record over given conditions. -/
abbrev vecGatherDims (n m : Nat)
    (wf : GatherDims.WF ⟨1, ![n]⟩ ⟨2, ![m, 1]⟩ ⟨1, ![m]⟩ [] [0] [] [0] [] 1 ![1]) :
    GatherDims ⟨1, ![n]⟩ ⟨2, ![m, 1]⟩ ⟨1, ![m]⟩ where
  offsetDims := []
  collapsedSliceDims := [0]
  operandBatchingDims := []
  startIndicesBatchingDims := []
  startIndexMap := [0]
  indexVectorDim := 1
  sliceSizes := ![1]
  wf := wf

/-- The gather of entries read at e, for the literal record: the operand at the clamped word of row e. -/
theorem vecGatherDims_apply (wf : GatherDims.WF ⟨1, ![n]⟩ ⟨2, ![m, 1]⟩ ⟨1, ![m]⟩ [] [0] [] [0] [] 1 ![1])
    (hn : 0 < n) (x : (⟨1, ![n]⟩ : Shape).Idx → α) (idx : IVec (⟨2, ![m, 1]⟩ : Shape) wd) (e : Fin m) :
    Host.gather (vecGatherDims n m wf) x idx (ix1 e) = x (ix1 (clampRow n hn (idx (ix2 e (0 : Fin 1))))) := by
  unfold Host.gather
  congr 1
  funext a
  obtain rfl : a = 0 := Subsingleton.elim _ _
  refine Fin.ext ?_
  show (vecGatherDims n m wf).start (ix1 e) idx 0 + (vecGatherDims n m wf).batchCoord (ix1 e) 0
    + (vecGatherDims n m wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n m wf).startIndexMap from List.mem_singleton.mpr rfl)]
  have hsi : (vecGatherDims n m wf).siIdx (ix1 e) ⟨List.idxOf (0 : Fin 1) (vecGatherDims n m wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE GATHER OF ENTRIES OF A VECTOR READ AT e, for any record with these fields: the operand at the word of row e,
    read signed and clamped into 0 … n − 1. -/
theorem gather_vec_apply {α : Type} {n m wd : Nat}
    (gd : GatherDims (⟨1, ![n]⟩ : Shape) (⟨2, ![m, 1]⟩ : Shape) (⟨1, ![m]⟩ : Shape))
    (ho : gd.offsetDims = []) (hc : gd.collapsedSliceDims = [0]) (hob : gd.operandBatchingDims = [])
    (hsb : gd.startIndicesBatchingDims = []) (hm : gd.startIndexMap = [0]) (hv : gd.indexVectorDim = 1)
    (hs : gd.sliceSizes = ![1]) (hn : 0 < n)
    (x : (⟨1, ![n]⟩ : Shape).Idx → α) (idx : IVec (⟨2, ![m, 1]⟩ : Shape) wd) (e : Fin m) :
    Host.gather gd x idx (ix1 e) = x (ix1 (clampRow n hn (idx (ix2 e (0 : Fin 1))))) := by
  obtain ⟨od, cd, ob, sb, sm, iv, ss, wf⟩ := gd
  dsimp only at ho hc hob hsb hm hv hs
  subst ho hc hob hsb hm hv hs
  exact vecGatherDims_apply wf hn x idx e

end GatherVec

/-! ## Extended reals: a sum times a factor, and the guarded reciprocal square root -/

/-- A finite sum times a factor that is nonnegative and not ⊤ is the sum of the products. -/
theorem sum_mul_of_nonneg_ne_top {ι : Type} (s : Finset ι) (f : ι → EReal) (d : EReal) (h0 : 0 ≤ d) (ht : d ≠ ⊤) :
    (∑ e ∈ s, f e) * d = ∑ e ∈ s, f e * d := by
  classical
  induction s using Finset.induction_on with
  | empty => simp
  | insert a s ha ih =>
    rw [Finset.sum_insert ha, Finset.sum_insert ha, EReal.right_distrib_of_nonneg_of_ne_top h0 ht, ih]

/-- The reciprocal square root guarded by "the argument is positive" (0 otherwise) is nonnegative and never ⊤: at ⊤ it is
    0, at a positive real r it is the real (√r)⁻¹, and everywhere else the guard gives 0. -/
theorem dinv_nonneg_ne_top (x : EReal) :
    0 ≤ (Scalar.select (Ideal.cmp .ogt x 0) (Ideal.rsqrt x) (0 : EReal))
      ∧ (Scalar.select (Ideal.cmp .ogt x 0) (Ideal.rsqrt x) (0 : EReal)) ≠ ⊤ := by
  by_cases hx : 0 < x
  · have hcmp : Ideal.cmp .ogt x 0 = 1#1 := by simp [Ideal.cmp, hx]
    rw [hcmp, select_one]
    induction x using EReal.rec with
    | bot => exact absurd hx (by simp)
    | top =>
      have hval : Ideal.rsqrt (⊤ : EReal) = 0 := rfl
      rw [hval]
      exact ⟨le_refl _, EReal.zero_ne_top⟩
    | coe r =>
      have hr : 0 < r := by exact_mod_cast hx
      have hval : Ideal.rsqrt (r : EReal) = (((Real.sqrt r)⁻¹ : ℝ) : EReal) := by
        show (if r < 0 then (⊥ : EReal) else if r = 0 then ⊤ else (((Real.sqrt r)⁻¹ : ℝ) : EReal)) = _
        rw [if_neg (not_lt.mpr hr.le), if_neg hr.ne']
      rw [hval]
      exact ⟨by exact_mod_cast inv_nonneg.mpr (Real.sqrt_nonneg r), EReal.coe_ne_top _⟩
  · have hcmp : Ideal.cmp .ogt x 0 = 0#1 := by simp [Ideal.cmp, hx]
    rw [hcmp, select_zero]
    exact ⟨le_refl _, EReal.zero_ne_top⟩

end RowOps

end
-- ==== Proof.LibBroadcasts.lean ====
/-
  Broadcasts read at an index, for the few forms a host program over vectors and matrices uses.

  A broadcast copies the operand along the axes it adds and along the operand's axes of extent one.  So a scalar
  broadcast to any shape has the scalar everywhere; a vector of m entries made a column [m, 1] has entry e at (e, 0);
  a column [m, 1] widened to [m, q] has entry (e, 0) at (e, c); a vector of q entries made a row [1, q] has entry c
  at (0, c); and a row [1, q] repeated to [n, q] has entry (0, c) at (p, c).
-/
import Idealize.ShloMosaic.Lib.ValueIdx
import Idealize.ShloMosaic.Lib.Pipeline.Value

noncomputable section

namespace Broadcasts

open Idealize.ShloMosaic Idealize.ShloMosaic.ValueIdx

variable {α : Type}

/-- A scalar broadcast to any shape reads the scalar at every index. -/
theorem scalar_apply (t : Shape) (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads entry e at (e, 0). -/
theorem column_apply {m : Nat} (h : (⟨1, ![m]⟩ : Shape).BroadcastsInDim ⟨2, ![m, 1]⟩ (![0] : Fin 1 → Fin 2))
    (x : (⟨1, ![m]⟩ : Shape).Idx → α) (e : Fin m) :
    broadcastInDim (⟨2, ![m, 1]⟩ : Shape) ![0] h x (ix2 e (0 : Fin 1)) = x (ix1 e) :=
  broadcastInDim_apply _ h x _ (ix1 e) (fun a => match a with
    | ⟨0, _⟩ => by
      show e.val = if m = 1 then 0 else e.val
      split
      · have := e.isLt; omega
      · rfl)

/-- A column widened to q columns reads entry (e, 0) at (e, c). -/
theorem widen_apply {m q : Nat} (h : (⟨2, ![m, 1]⟩ : Shape).BroadcastsInDim ⟨2, ![m, q]⟩ (![0, 1] : Fin 2 → Fin 2))
    (x : (⟨2, ![m, 1]⟩ : Shape).Idx → α) (e : Fin m) (c : Fin q) :
    broadcastInDim (⟨2, ![m, q]⟩ : Shape) ![0, 1] h x (ix2 e c) = x (ix2 e (0 : Fin 1)) :=
  broadcastInDim_apply _ h x _ (ix2 e (0 : Fin 1)) (fun a => match a with
    | ⟨0, _⟩ => by
      show e.val = if m = 1 then 0 else e.val
      split
      · have := e.isLt; omega
      · rfl
    | ⟨1, _⟩ => by
      show 0 = if (1 : Nat) = 1 then 0 else c.val
      rw [if_pos rfl])

/-- A vector made a row reads entry c at (0, c). -/
theorem row_apply {q : Nat} (h : (⟨1, ![q]⟩ : Shape).BroadcastsInDim ⟨2, ![1, q]⟩ (![1] : Fin 1 → Fin 2))
    (x : (⟨1, ![q]⟩ : Shape).Idx → α) (c : Fin q) :
    broadcastInDim (⟨2, ![1, q]⟩ : Shape) ![1] h x (ix2 (0 : Fin 1) c) = x (ix1 c) :=
  broadcastInDim_apply _ h x _ (ix1 c) (fun a => match a with
    | ⟨0, _⟩ => by
      show c.val = if q = 1 then 0 else c.val
      split
      · have := c.isLt; omega
      · rfl)

/-- A row repeated n times reads entry (0, c) at (p, c). -/
theorem repeat_apply {n q : Nat} (h : (⟨2, ![1, q]⟩ : Shape).BroadcastsInDim ⟨2, ![n, q]⟩ (![0, 1] : Fin 2 → Fin 2))
    (x : (⟨2, ![1, q]⟩ : Shape).Idx → α) (p : Fin n) (c : Fin q) :
    broadcastInDim (⟨2, ![n, q]⟩ : Shape) ![0, 1] h x (ix2 p c) = x (ix2 (0 : Fin 1) c) :=
  broadcastInDim_apply _ h x _ (ix2 (0 : Fin 1) c) (fun a => match a with
    | ⟨0, _⟩ => by
      show 0 = if (1 : Nat) = 1 then 0 else p.val
      rw [if_pos rfl]
    | ⟨1, _⟩ => by
      show c.val = if q = 1 then 0 else c.val
      split
      · have := c.isLt; omega
      · rfl)

end Broadcasts

end
-- ==== Proof.Graph.lean ====
/-
  The graph data both programs build from the edge list, as whole arrays, and the two facts the law needs of them.

  The edge list is a 2 × 1 600 000 array of words; row 0 holds the sources, row 1 the targets.  Both programs append the
  100 000 self loops `0, 1, …` to each row (1 700 000 edges).  A GATHER reads a word signed, adds the node count to a
  negative one, and clamps the result into `0 … 99 999` (`node`); an accumulating SCATTER reads the word signed as it is and
  drops the update when it names no node (`landsOn`).  The degree of a node is the number of edges scattered onto it, and
  `degInv` is its inverse square root where the degree is positive and zero elsewhere.
-/
import Idealize.ShloMosaic.Lib.ValueIdx
import Idealize.ShloMosaic.Lib.Pipeline.Value
import Idealize.ShloMosaic.PureOps.Ideal.Laws
import proofs.«102439_j89807766159535_2_alg».proof.Proof.LibRowOps
import proofs.«102439_j89807766159535_2_alg».proof.Proof.LibBroadcasts

noncomputable section

open scoped BigOperators

namespace Gcn

open Idealize.ShloMosaic Idealize.ShloMosaic.ValueIdx

abbrev S0 : Shape := ⟨0, ![]⟩
abbrev SV : Shape := ⟨1, ![100000]⟩
abbrev SE : Shape := ⟨1, ![1700000]⟩
abbrev SE1 : Shape := ⟨2, ![1700000, 1]⟩
abbrev SEi : Shape := ⟨2, ![2, 1600000]⟩
abbrev SEr : Shape := ⟨2, ![1, 1600000]⟩
abbrev SEv : Shape := ⟨1, ![1600000]⟩

/-- One row of the edge list (`o = ![0, 0]` the sources, `![1, 0]` the targets) with the self loops appended. -/
def endpointWords (o : Fin 2 → Nat) (hs : SEi.Slices o SEr) (hc : SEr.ShapeCasts SEv)
    (hcat : Shape.Concatenates [SEv, SV] SE 0) (ei : IVec SEi 32) : IVec SE 32 :=
  concatenate SE 0 [⟨SEv, shapeCast SEv (extractStridedSlice SEr o ei hs) hc⟩, ⟨SV, iotaInDim SV 32 0⟩] hcat

/-- The words of an endpoint row as a column. -/
def asColumn (h1 : SE.BroadcastsInDim SE1 ![0]) (r : IVec SE 32) : IVec SE1 32 := broadcastInDim SE1 ![0] h1 r

/-- The words of an endpoint row made ready for a gather: the node count added to a negative word; as a column. -/
def wrapped (h0 : S0.BroadcastsInDim SE ![]) (h1 : SE.BroadcastsInDim SE1 ![0]) (r : IVec SE 32) : IVec SE1 32 :=
  broadcastInDim SE1 ![0] h1
    (select (cmpi .slt r (broadcastInDim SE ![] h0 (constantI S0 32 0#32)))
      (addi r (broadcastInDim SE ![] h0 (constantI S0 32 100000#32))) r)

/-- The node a gather reads for edge `e`. -/
def node (h0 : S0.BroadcastsInDim SE ![]) (h1 : SE.BroadcastsInDim SE1 ![0]) (r : IVec SE 32) (e : Fin 1700000) : Fin 100000 :=
  RowOps.clampRow 100000 (by decide) (wrapped h0 h1 r (ix2 e (0 : Fin 1)))

/-- The edges an accumulating scatter by the column of `c` adds into node `v`. -/
def edgesInto (h1 : SE.BroadcastsInDim SE1 ![0]) (c : IVec SE 32) (v : Fin 100000) : Finset (Fin 1700000) :=
  Finset.univ.filter fun e : Fin 1700000 => (asColumn h1 c (ix2 e (0 : Fin 1))).toInt = (v.val : Int)

/-- The degree of every node: ones scattered onto zeros by the target column. -/
def degree (hz : S0.BroadcastsInDim SV ![]) (ho : S0.BroadcastsInDim SE ![]) (h1 : SE.BroadcastsInDim SE1 ![0])
    (d : ScatterDims SV SE1 SE) (c : IVec SE 32) : FVec Ideal SV .f32 :=
  Host.scatterAdd d (broadcastInDim SV ![] hz (constant S0 .f32 0x00000000#32)) (broadcastInDim SE1 ![0] h1 c)
    (broadcastInDim SE ![] ho (constant S0 .f32 0x3F800000#32))

/-- The inverse square root of the degree where it is positive, zero elsewhere. -/
def degInv (hz : S0.BroadcastsInDim SV ![]) (ho : S0.BroadcastsInDim SE ![]) (h1 : SE.BroadcastsInDim SE1 ![0])
    (d : ScatterDims SV SE1 SE) (c : IVec SE 32) : FVec Ideal SV .f32 :=
  select (cmpf .ogt (degree hz ho h1 d c) (broadcastInDim SV ![] hz (constant S0 .f32 0x00000000#32)))
    (Host.rsqrt (degree hz ho h1 d c)) (broadcastInDim SV ![] hz (id (constant S0 .f32 0x00000000#32)))

/-- `degInv` is never negative and never +∞. -/
theorem degInv_nonneg_ne_top (hz : S0.BroadcastsInDim SV ![]) (ho : S0.BroadcastsInDim SE ![]) (h1 : SE.BroadcastsInDim SE1 ![0])
    (d : ScatterDims SV SE1 SE) (c : IVec SE 32) (p : Fin 100000) :
    0 ≤ degInv hz ho h1 d c (ix1 p) ∧ degInv hz ho h1 d c (ix1 p) ≠ ⊤ := by
  have e : ∀ g : FVec Ideal SV .f32,
      select (cmpf .ogt g (broadcastInDim SV ![] hz (constant S0 .f32 0x00000000#32))) (Host.rsqrt g)
          (broadcastInDim SV ![] hz (id (constant S0 .f32 0x00000000#32))) (ix1 p)
        = Scalar.select (Ideal.cmp .ogt (g (ix1 p)) 0) (Ideal.rsqrt (g (ix1 p))) (0 : EReal) := by
    intro g
    rw [select_apply, cmpf_apply, Broadcasts.scalar_apply, Broadcasts.scalar_apply]
    simp only [Host.rsqrt, id, constant_apply, Ideal.hostUnary_rsqrt_def, Ideal.ofBits_zero_f32]
    rfl
  unfold degInv
  rw [e]
  exact RowOps.dinv_nonneg_ne_top _

/-- An edge that the scatter adds into node `v` names `v` when its target word is read as a gather index. -/
theorem node_of_mem_edgesInto (h0 : S0.BroadcastsInDim SE ![]) (h1 : SE.BroadcastsInDim SE1 ![0]) (c : IVec SE 32)
    (v : Fin 100000) (e : Fin 1700000) (he : e ∈ edgesInto h1 c v) : node h0 h1 c e = v := by
  have hw : (c (ix1 e)).toInt = (v.val : Int) := by
    have := (Finset.mem_filter.mp he).2
    unfold asColumn at this
    rwa [Broadcasts.column_apply] at this
  have hv := v.isLt
  unfold node wrapped
  rw [Broadcasts.column_apply, select_apply]
  have hnot : IntOp.cmpi .slt (c (ix1 e)) (broadcastInDim SE ![] h0 (constantI S0 32 0#32) (ix1 e)) = 0#1 := by
    rw [Broadcasts.scalar_apply]
    show BitVec.ofBool ((c (ix1 e)).slt (0#32)) = 0#1
    have : (c (ix1 e)).slt (0#32) = false := by
      rw [BitVec.slt_eq_decide]; simp only [BitVec.toInt_zero, decide_eq_false_iff_not, not_lt]; omega
    rw [this]; rfl
  show RowOps.clampRow 100000 _ (Scalar.select (IntOp.cmpi .slt (c (ix1 e)) _) _ (c (ix1 e))) = v
  rw [hnot, select_zero]
  refine Fin.ext ?_
  show min (c (ix1 e)).toInt.toNat (100000 - 1) = v.val
  omega

end Gcn

end
-- ==== Proof.Stretches.lean ====
/-
  The idealized kernel's host stretches, each read at the buffers the result depends on.

  @main's host operations fall into five stretches (three before the first pallas_call, one between the calls, one after
  the second).  For a stretch entered with the buffers at ANY contents `W`, what a buffer holds after the stretch is a
  pure term of `W` at the stretch's operand buffers: a buffer the stretch does not write keeps its contents; the edge
  endpoint words, the degree factor, a gather of rows followed by an accumulating scatter, and the final
  scale-and-bias are the terms below.  Nothing here mentions the launch memory or a pallas_call.
-/
import proofs.«102439_j89807766159535_2_alg».proof.Proof.Gen.KernelIdeal.Launch
import proofs.«102439_j89807766159535_2_alg».proof.Proof.Graph
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo Idealize.ShloMosaic.ValueIdx

variable (W : Valuation τ sig (Elt Ideal))

/-! ### Before the first call: the endpoint words, the degree factor as a column, the biases as rows -/

/-- the stretches before the first call, one after the other -/
abbrev before (W : Valuation τ sig (Elt Ideal)) : Valuation τ sig (Elt Ideal) :=
  after (hostOps0_2 (F := Ideal)) (after (hostOps0_1 (F := Ideal)) (after (hostOps0 (F := Ideal)) W))

/-- the source words (with the self loops) of the edge list held in `W` -/
abbrev sources (W : Valuation τ sig (Elt Ideal)) : IVec Gcn.SE 32 :=
  Gcn.endpointWords ![0, 0] slices_S2x1600000_S1x1600000_0_0 shapeCasts_S1x1600000_S1600000
    concatenates_S1600000_S100000_S1700000_d0 (W (Proc.devRef .tc main_arg1))
/-- the target words -/
abbrev targets (W : Valuation τ sig (Elt Ideal)) : IVec Gcn.SE 32 :=
  Gcn.endpointWords ![1, 0] slices_S2x1600000_S1x1600000_1_0 shapeCasts_S1x1600000_S1600000
    concatenates_S1600000_S100000_S1700000_d0 (W (Proc.devRef .tc main_arg1))
/-- the degree factor of every node -/
abbrev factor (W : Valuation τ sig (Elt Ideal)) : FVec Ideal Gcn.SV .f32 :=
  Gcn.degInv bcast_S_S100000 bcast_S_S1700000 bcast_S1700000_S1700000x1_0 scatter_S100000_S1700000x1_S1700000_n_0_0_1 (targets W)

set_option maxHeartbeats 4000000 in
theorem before_v3 : before W (Proc.devRef .tc main_v3) = sources W := by
  after_results; rfl
set_option maxHeartbeats 4000000 in
theorem before_v6 : before W (Proc.devRef .tc main_v6) = targets W := by
  after_results; rfl
/-- the degree of every node, from the edge list held in `W` -/
abbrev deg (W : Valuation τ sig (Elt Ideal)) : FVec Ideal Gcn.SV .f32 :=
  Gcn.degree bcast_S_S100000 bcast_S_S1700000 bcast_S1700000_S1700000x1_0 scatter_S100000_S1700000x1_S1700000_n_0_0_1 (targets W)

set_option maxHeartbeats 4000000 in
theorem first_v12 : after (hostOps0 (F := Ideal)) W (Proc.devRef .tc main_v12)
    = cmpf .ogt (deg W) (broadcastInDim S100000 ![] bcast_S_S100000 (constant (F := Ideal) S_ .f32 0x00000000#32)) := by
  after_results; rfl
set_option maxHeartbeats 4000000 in
theorem first_v13 : after (hostOps0 (F := Ideal)) W (Proc.devRef .tc main_v13) = Host.rsqrt (deg W) := by
  after_results; rfl
set_option maxHeartbeats 4000000 in
theorem first_cst_2 : after (hostOps0 (F := Ideal)) W (Proc.devRef .tc main_cst_2) = constant (F := Ideal) S_ .f32 0x00000000#32 := by
  after_results
theorem where_v14 : after (hostOps0_1 (F := Ideal)) W (Proc.devRef .tc main_v14)
    = select (W (Proc.devRef .tc main_v12)) (W (Proc.devRef .tc main_v13))
        (broadcastInDim S100000 ![] bcast_S_S100000 (id (W (Proc.devRef .tc main_cst_2)))) := by
  after_results; rfl
theorem column_v15 : after (hostOps0_2 (F := Ideal)) W (Proc.devRef .tc main_v15)
    = shapeCast S100000x1 (W (Proc.devRef .tc main_v14)) shapeCasts_S100000_S100000x1 := by
  after_results; rfl

theorem before_v15 : before W (Proc.devRef .tc main_v15) = shapeCast S100000x1 (factor W) shapeCasts_S100000_S100000x1 := by
  show after (hostOps0_2 (F := Ideal)) (after (hostOps0_1 (F := Ideal)) (after (hostOps0 (F := Ideal)) W)) (Proc.devRef .tc main_v15) = _
  rw [column_v15, where_v14, first_v12, first_v13, first_cst_2]
  rfl
set_option maxHeartbeats 4000000 in
theorem before_v16 : before W (Proc.devRef .tc main_v16) = shapeCast S1x64 (W (Proc.devRef .tc main_arg3)) shapeCasts_S64_S1x64 := by
  after_results; rfl
set_option maxHeartbeats 4000000 in
theorem before_v17 : before W (Proc.devRef .tc main_v17) = shapeCast S1x40 (W (Proc.devRef .tc main_arg5)) shapeCasts_S40_S1x40 := by
  after_results; rfl
set_option maxHeartbeats 4000000 in
theorem before_arg0 : before W (Proc.devRef .tc main_arg0) = W (Proc.devRef .tc main_arg0) := by after_results
set_option maxHeartbeats 4000000 in
theorem before_arg2 : before W (Proc.devRef .tc main_arg2) = W (Proc.devRef .tc main_arg2) := by after_results
set_option maxHeartbeats 4000000 in
theorem before_arg4 : before W (Proc.devRef .tc main_arg4) = W (Proc.devRef .tc main_arg4) := by after_results

/-! ### Between the calls: the rows of the first call's output gathered by source and summed by target -/

/-- rows of `h` gathered at the sources and added, onto zeros, into the targets -/
abbrev aggregate64 (h : FVec Ideal S100000x64 .f32) (r c : IVec Gcn.SE 32) : FVec Ideal S100000x64 .f32 :=
  Host.scatterAdd scatter_S100000x64_S1700000x1_S1700000x64_1_0_0_1
    (broadcastInDim S100000x64 ![] bcast_S_S100000x64 (constant (F := Ideal) S_ .f32 0x00000000#32))
    (Gcn.asColumn bcast_S1700000_S1700000x1_0 c)
    (Host.gather gather_S100000x64_S1700000x1_S1700000x64_1_0_n_n_0_1_164 h (Gcn.wrapped bcast_S_S1700000 bcast_S1700000_S1700000x1_0 r))

set_option maxHeartbeats 4000000 in
theorem between_v28 : after (hostOps1 (F := Ideal)) W (Proc.devRef .tc main_v28)
    = aggregate64 (W (Proc.devRef .tc main_v18)) (W (Proc.devRef .tc main_v3)) (W (Proc.devRef .tc main_v6)) := by
  after_results; rfl
set_option maxHeartbeats 4000000 in
theorem between_v3 : after (hostOps1 (F := Ideal)) W (Proc.devRef .tc main_v3) = W (Proc.devRef .tc main_v3) := by after_results
set_option maxHeartbeats 4000000 in
theorem between_v6 : after (hostOps1 (F := Ideal)) W (Proc.devRef .tc main_v6) = W (Proc.devRef .tc main_v6) := by after_results
set_option maxHeartbeats 4000000 in
theorem between_v15 : after (hostOps1 (F := Ideal)) W (Proc.devRef .tc main_v15) = W (Proc.devRef .tc main_v15) := by after_results
set_option maxHeartbeats 4000000 in
theorem between_v16 : after (hostOps1 (F := Ideal)) W (Proc.devRef .tc main_v16) = W (Proc.devRef .tc main_v16) := by after_results
set_option maxHeartbeats 4000000 in
theorem between_v17 : after (hostOps1 (F := Ideal)) W (Proc.devRef .tc main_v17) = W (Proc.devRef .tc main_v17) := by after_results
set_option maxHeartbeats 4000000 in
theorem between_arg4 : after (hostOps1 (F := Ideal)) W (Proc.devRef .tc main_arg4) = W (Proc.devRef .tc main_arg4) := by after_results

/-! ### After the second call: gather, sum, scale by the node's factor, add the bias -/

/-- rows of `h` gathered at the sources and added, onto zeros, into the targets (40 columns) -/
abbrev aggregate40 (h : FVec Ideal S100000x40 .f32) (r c : IVec Gcn.SE 32) : FVec Ideal S100000x40 .f32 :=
  Host.scatterAdd scatter_S100000x40_S1700000x1_S1700000x40_1_0_0_1
    (broadcastInDim S100000x40 ![] bcast_S_S100000x40 (constant (F := Ideal) S_ .f32 0x00000000#32))
    (Gcn.asColumn bcast_S1700000_S1700000x1_0 c)
    (Host.gather gather_S100000x40_S1700000x1_S1700000x40_1_0_n_n_0_1_140 h (Gcn.wrapped bcast_S_S1700000 bcast_S1700000_S1700000x1_0 r))

set_option maxHeartbeats 4000000 in
theorem last_v43 : after (hostOps2 (F := Ideal)) W (Proc.devRef .tc main_v43)
    = addf (mulf (broadcastInDim S100000x40 ![0, 1] bcast_S100000x1_S100000x40_0_1 (W (Proc.devRef .tc main_v15)))
          (aggregate40 (W (Proc.devRef .tc main_v29)) (W (Proc.devRef .tc main_v3)) (W (Proc.devRef .tc main_v6))))
        (broadcastInDim S100000x40 ![0, 1] bcast_S1x40_S100000x40_0_1 (W (Proc.devRef .tc main_v17))) := by
  after_results; rfl

end Cert.KernelIdeal.Stretches

end
-- ==== Proof.LibHostScatter.lean ====
/-
  The host's accumulating row scatter on the extended reals, read at an entry, stated for the host operation itself.

  On the extended reals the host's accumulating scatter is the exact sum.  Stated at arbitrary sizes, where the
  identification of the host operation with that sum is a matter of unfolding and nothing is enumerated, and then used at
  any literal sizes by rewriting.
-/
import proofs.«102439_j89807766159535_2_alg».proof.Proof.LibRowOps

noncomputable section

open scoped BigOperators

namespace RowOps

open Idealize.ShloMosaic Idealize.ShloMosaic.ValueIdx

/-- ENTRY (i, c) OF THE HOST'S ACCUMULATING ROW SCATTER on the extended reals: the operand's entry plus the sum, over the
    update rows whose word read signed is i, of the rows' entry c. -/
theorem hostScatterAdd_rows_apply {n m q wd : Nat}
    (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (x : (⟨2, ![n, q]⟩ : Shape).Idx → EReal) (idx : IVec (⟨2, ![m, 1]⟩ : Shape) wd)
    (upd : (⟨2, ![m, q]⟩ : Shape).Idx → EReal) (i : Fin n) (c : Fin q) :
    Host.scatterAdd (F := Ideal) (φ := .f32) d x idx upd (ix2 i c)
      = x (ix2 i c) + ∑ e ∈ Finset.univ.filter (fun e : Fin m => (idx (ix2 e (0 : Fin 1))).toInt = (i.val : Int)), upd (ix2 e c) :=
  scatterAdd_rows_apply d hu hi hs hv x idx upd i c

end RowOps

end
-- ==== Proof.Aggregate.lean ====
/-
  Rows gathered at the sources and summed into the targets, read at an entry.

  For an array `h` of 100 000 rows and `q` columns, gather row `node r e` for every edge `e` and add the gathered rows,
  onto an array of zeros, into the rows the target column names.  Entry (v, j) of the result is then
  `0 + ∑ e ∈ edgesInto c v, h (node r e, j)`: the accumulating scatter read at an entry is the operand's entry plus the
  sum over the edges whose target word is `v`; the operand is zero; and update row `e` is row `node r e` of `h`.
-/
import proofs.«102439_j89807766159535_2_alg».proof.Proof.Graph
import proofs.«102439_j89807766159535_2_alg».proof.Proof.LibHostScatter

noncomputable section

open scoped BigOperators

namespace Gcn

open Idealize.ShloMosaic Idealize.ShloMosaic.ValueIdx

theorem aggregate_apply {q : Nat}
    (sd : ScatterDims (⟨2, ![100000, q]⟩ : Shape) SE1 (⟨2, ![1700000, q]⟩ : Shape))
    (hu : sd.updateWindowDims = [1]) (hi : sd.insertedWindowDims = [0]) (hs : sd.scatterDimsToOperandDims = [0])
    (hv : sd.indexVectorDim = 1)
    (gd : GatherDims (⟨2, ![100000, q]⟩ : Shape) SE1 (⟨2, ![1700000, q]⟩ : Shape))
    (go : gd.offsetDims = [1]) (gc : gd.collapsedSliceDims = [0]) (gob : gd.operandBatchingDims = [])
    (gsb : gd.startIndicesBatchingDims = []) (gm : gd.startIndexMap = [0]) (gv : gd.indexVectorDim = 1)
    (gs : gd.sliceSizes = ![1, q])
    (hz : S0.BroadcastsInDim (⟨2, ![100000, q]⟩ : Shape) ![]) (h0 : S0.BroadcastsInDim SE ![]) (h1 : SE.BroadcastsInDim SE1 ![0])
    (h : (⟨2, ![100000, q]⟩ : Shape).Idx → EReal) (r c : IVec SE 32) (v : Fin 100000) (j : Fin q) :
    Host.scatterAdd (F := Ideal) (φ := .f32) sd
        (broadcastInDim (⟨2, ![100000, q]⟩ : Shape) ![] hz (constant (F := Ideal) S0 .f32 0x00000000#32))
        (asColumn h1 c) (Host.gather gd h (wrapped h0 h1 r)) (ix2 v j)
      = 0 + ∑ e ∈ edgesInto h1 c v, h (ix2 (node h0 h1 r e) j) := by
  rw [RowOps.hostScatterAdd_rows_apply sd hu hi hs hv, Broadcasts.scalar_apply, constant_apply, Ideal.ofBits_zero_f32]
  refine congrArg (fun s => (0 : EReal) + s) (Finset.sum_congr rfl fun e _ => ?_)
  rw [RowOps.gather_rows_apply gd go gc gob gsb gm gv gs (by decide)]
  rfl

end Gcn

end
-- ==== Proof.Layers.lean ====
/-
  What each of the kernel's two pallas_calls leaves in its output array, as one function of its operand arrays, entry by
  entry on the extended reals.

  The first call tiles the 100 000 rows in 20 blocks of 5 000; on a block it multiplies the block of `x` by the whole of
  `W1` and scales every row by that row's entry of the one-column array `d`.  Row `p` of the result depends on row `p` of
  `x` and `d` only, so the blocks are the restrictions of `scaledProduct`.  The second call does the same to the rows of
  `max(a · d + b, 0)` (`a` scaled row by row, the one-row array `b` added to every row, the rectifier) against `W2`.
-/
import Idealize.ShloMosaic.Lib.ValueIdx
import Idealize.ShloMosaic.PureOps.Ideal.Laws

noncomputable section

open scoped BigOperators

namespace Gcn

open Idealize.ShloMosaic Idealize.ShloMosaic.ValueIdx

/-- entry (p, j) of `(x · w)` with row `p` scaled by `d p` -/
def scaledProductAt (x : (⟨2, ![100000, 128]⟩ : Shape).Idx → EReal) (w : (⟨2, ![128, 64]⟩ : Shape).Idx → EReal)
    (d : (⟨2, ![100000, 1]⟩ : Shape).Idx → EReal) (p : Fin 100000) (j : Fin 64) : EReal :=
  (∑ k : Fin 128, x (ix2 p k) * w (ix2 k j)) * d (ix2 p (0 : Fin 1))

/-- the first pallas_call's whole output -/
def scaledProduct (x : (⟨2, ![100000, 128]⟩ : Shape).Idx → EReal) (w : (⟨2, ![128, 64]⟩ : Shape).Idx → EReal)
    (d : (⟨2, ![100000, 1]⟩ : Shape).Idx → EReal) : (⟨2, ![100000, 64]⟩ : Shape).Idx → EReal :=
  fun i => scaledProductAt x w d (i 0) (i 1)

/-- entry (p, j') of `max(a · d + b, 0) · w` with row `p` scaled by `d p` -/
def hiddenProductAt (a : (⟨2, ![100000, 64]⟩ : Shape).Idx → EReal) (d : (⟨2, ![100000, 1]⟩ : Shape).Idx → EReal)
    (b : (⟨2, ![1, 64]⟩ : Shape).Idx → EReal) (w : (⟨2, ![64, 40]⟩ : Shape).Idx → EReal) (p : Fin 100000) (j' : Fin 40) : EReal :=
  (∑ j : Fin 64, max (a (ix2 p j) * d (ix2 p (0 : Fin 1)) + b (ix2 (0 : Fin 1) j)) 0 * w (ix2 j j')) * d (ix2 p (0 : Fin 1))

/-- the second pallas_call's whole output -/
def hiddenProduct (a : (⟨2, ![100000, 64]⟩ : Shape).Idx → EReal) (d : (⟨2, ![100000, 1]⟩ : Shape).Idx → EReal)
    (b : (⟨2, ![1, 64]⟩ : Shape).Idx → EReal) (w : (⟨2, ![64, 40]⟩ : Shape).Idx → EReal) : (⟨2, ![100000, 40]⟩ : Shape).Idx → EReal :=
  fun i => hiddenProductAt a d b w (i 0) (i 1)

theorem scaledProduct_apply (x : (⟨2, ![100000, 128]⟩ : Shape).Idx → EReal) (w : (⟨2, ![128, 64]⟩ : Shape).Idx → EReal)
    (d : (⟨2, ![100000, 1]⟩ : Shape).Idx → EReal) (p : Fin 100000) (j : Fin 64) :
    scaledProduct x w d (ix2 p j) = scaledProductAt x w d p j := rfl

theorem hiddenProduct_apply (a : (⟨2, ![100000, 64]⟩ : Shape).Idx → EReal) (d : (⟨2, ![100000, 1]⟩ : Shape).Idx → EReal)
    (b : (⟨2, ![1, 64]⟩ : Shape).Idx → EReal) (w : (⟨2, ![64, 40]⟩ : Shape).Idx → EReal) (p : Fin 100000) (j' : Fin 40) :
    hiddenProduct a d b w (ix2 p j') = hiddenProductAt a d b w p j' := rfl

end Gcn

end
-- ==== Proof.Bridge.lean ====
/-
  The two-layer graph convolution, written twice over abstract finite index types, and the law that makes the two
  writings one function.

  Nodes `V`, edges `E`; edge `e` reads node `src e` and is added into the nodes `v` with `e ∈ into v`; `tgt e` is the node
  an edge's own target word names when it is read as a gather index (for an edge that is added into `v` it is `v`).
  `D v` is the inverse square root of the degree of `v`, of which only two things are used: it is never negative and
  never +∞.  One layer of the convolution at node `v`, feature `j`, is

      ∑_{e ∈ into v}  (x · W)[src e, j] · D (src e) · D v   +   b j .

  The kernel's writing scales the rows of `x · W` by `D` BEFORE the edges are summed and scales the sum by `D v`
  afterwards; the reference's writing multiplies every edge's term by `D (src e) · D (tgt e)`.  They agree because a
  finite sum times a factor that is nonnegative and not +∞ is the sum of the products (on the extended reals this needs
  exactly those two facts of the factor, and nothing of the terms), products associate and commute, and `tgt e = v` on the
  edges summed into `v`.
-/
import proofs.«102439_j89807766159535_2_alg».proof.Proof.LibRowOps

noncomputable section

open scoped BigOperators

namespace Gcn

variable {E V K J J' : Type} [Fintype K] [Fintype J]
  (into : V → Finset E) (src tgt : E → V) (D : V → EReal)
  (X : V → K → EReal) (W1 : K → J → EReal) (b1 : J → EReal) (W2 : J → J' → EReal) (b2 : J' → EReal)

/-- row `p` of `x · W1` -/
def lin1 (p : V) (j : J) : EReal := ∑ k, X p k * W1 k j

/-! ### The kernel's writing -/

/-- the rows of `x · W1`, each scaled by its node's factor, summed over the edges into `v` (onto zero) -/
def kerAgg1 (v : V) (j : J) : EReal := 0 + ∑ e ∈ into v, lin1 X W1 (src e) j * D (src e)
/-- layer 1 finished: the sum scaled by the node's factor, the bias, the rectifier -/
def kerHid (v : V) (j : J) : EReal := max (kerAgg1 into src D X W1 v j * D v + b1 j) 0
/-- the rows of `h · W2`, each scaled by its node's factor -/
def kerLin2 (v : V) (j' : J') : EReal := (∑ j, kerHid into src D X W1 b1 v j * W2 j j') * D v
/-- layer 2: the scaled rows summed over the edges into `v`, scaled by the node's factor, the bias -/
def kerOut (v : V) (j' : J') : EReal :=
  D v * (0 + ∑ e ∈ into v, kerLin2 into src D X W1 b1 W2 (src e) j') + b2 j'

/-! ### The reference's writing -/

/-- layer 1: every edge's row of `x · W1` times the product of its two endpoint factors, summed, the bias -/
def refLay1 (v : V) (j : J) : EReal :=
  (0 + ∑ e ∈ into v, lin1 X W1 (src e) j * (D (src e) * D (tgt e))) + b1 j
/-- the rectifier -/
def refHid (v : V) (j : J) : EReal := max (refLay1 into src tgt D X W1 b1 v j) 0
/-- row `v` of `h · W2` -/
def refLin2 (v : V) (j' : J') : EReal := ∑ j, refHid into src tgt D X W1 b1 v j * W2 j j'
/-- layer 2, as layer 1 -/
def refOut (v : V) (j' : J') : EReal :=
  (0 + ∑ e ∈ into v, refLin2 into src tgt D X W1 b1 W2 (src e) j' * (D (src e) * D (tgt e))) + b2 j'

/-! ### The law -/

variable (hD : ∀ v, 0 ≤ D v ∧ D v ≠ ⊤) (htgt : ∀ v, ∀ e ∈ into v, tgt e = v)
include hD htgt

/-- A sum over the edges into `v` of terms already scaled by the source's factor, scaled by `D v`, is the sum of the terms
    times the product of both endpoint factors. -/
theorem scaled_sum (a : E → EReal) (v : V) :
    (0 + ∑ e ∈ into v, a e * D (src e)) * D v = 0 + ∑ e ∈ into v, a e * (D (src e) * D (tgt e)) := by
  rw [zero_add, zero_add, RowOps.sum_mul_of_nonneg_ne_top _ _ _ (hD v).1 (hD v).2]
  refine Finset.sum_congr rfl fun e he => ?_
  rw [htgt v e he, mul_assoc]

theorem kerHid_eq (v : V) (j : J) : kerHid into src D X W1 b1 v j = refHid into src tgt D X W1 b1 v j := by
  unfold kerHid refHid refLay1 kerAgg1
  rw [scaled_sum into src tgt D hD htgt]

theorem kerLin2_eq (v : V) (j' : J') :
    kerLin2 into src D X W1 b1 W2 v j' = refLin2 into src tgt D X W1 b1 W2 v j' * D v := by
  unfold kerLin2 refLin2
  simp only [kerHid_eq into src tgt D X W1 b1 hD htgt]

/-- THE TWO WRITINGS ARE ONE FUNCTION. -/
theorem kerOut_eq_refOut (v : V) (j' : J') :
    kerOut into src D X W1 b1 W2 b2 v j' = refOut into src tgt D X W1 b1 W2 b2 v j' := by
  unfold kerOut refOut
  simp only [kerLin2_eq into src tgt D X W1 b1 W2 hD htgt]
  rw [mul_comm (D v), scaled_sum into src tgt D hD htgt]

end Gcn

end
-- ==== Proof.LibUnitReshapes.lean ====
/-
  Reshapes that only add or drop an axis of extent one, read at an index.

  A reshape keeps the row-major position.  A vector of n entries seen as a column [n, 1] has entry p at (p, 0); seen
  as a row [1, n] it has entry c at (0, c); and a column [n, 1] seen as a vector has entry (p, 0) at p.
-/
import Idealize.ShloMosaic.Lib.ValueIdx
import Idealize.ShloMosaic.Lib.Pipeline.Value

noncomputable section

namespace UnitReshapes

open Idealize.ShloMosaic Idealize.ShloMosaic.ValueIdx

variable {α : Type}

/-- A vector seen as a column reads entry p at (p, 0). -/
theorem asColumn_apply {n : Nat} (h : (⟨1, ![n]⟩ : Shape).ShapeCasts ⟨2, ![n, 1]⟩) (x : (⟨1, ![n]⟩ : Shape).Idx → α) (p : Fin n) :
    shapeCast (⟨2, ![n, 1]⟩ : Shape) x h (ix2 p (0 : Fin 1)) = x (ix1 p) :=
  shapeCast_apply x h _ (ix1 p) (by
    rw [Shape.rowMajor_val_one, Shape.rowMajor_val_two]
    show p.val = p.val * 1 + 0
    omega)

/-- A vector seen as a row reads entry c at (0, c). -/
theorem asRow_apply {n : Nat} (h : (⟨1, ![n]⟩ : Shape).ShapeCasts ⟨2, ![1, n]⟩) (x : (⟨1, ![n]⟩ : Shape).Idx → α) (c : Fin n) :
    shapeCast (⟨2, ![1, n]⟩ : Shape) x h (ix2 (0 : Fin 1) c) = x (ix1 c) :=
  shapeCast_apply x h _ (ix1 c) (by
    rw [Shape.rowMajor_val_one, Shape.rowMajor_val_two]
    show c.val = 0 * n + c.val
    omega)

/-- A column seen as a vector reads entry (p, 0) at p. -/
theorem ofColumn_apply {n : Nat} (h : (⟨2, ![n, 1]⟩ : Shape).ShapeCasts ⟨1, ![n]⟩) (x : (⟨2, ![n, 1]⟩ : Shape).Idx → α) (p : Fin n) :
    shapeCast (⟨1, ![n]⟩ : Shape) x h (ix1 p) = x (ix2 p (0 : Fin 1)) :=
  shapeCast_apply x h _ (ix2 p (0 : Fin 1)) (by
    rw [Shape.rowMajor_val_one, Shape.rowMajor_val_two]
    show p.val * 1 + 0 = p.val
    omega)

end UnitReshapes

end
-- ==== Proof.KernelValue.lean ====
/-
  The idealized kernel's result, entry by entry, as the kernel's writing of the two-layer convolution.

  The contents of the buffers at the seven boundaries of @main are a fold from the launch memory.  Read at the result
  buffer, and walked back boundary by boundary — a host stretch by its term, a pallas_call's output array by what the call
  leaves in it, every other buffer by "not written here" — the result at entry (v, j') is

      D v · (0 + ∑_{e into v} second (src e, j')) + b2 j',     second (p, j') = (∑_j max(first (p, j) · D p + b1 j, 0) · W2 (j, j')) · D p,
      first (p, j) = 0 + ∑_{e into p} (∑_k x (src e, k) · W1 (k, j)) · D (src e),

  which is `Gcn.kerOut`.  What each pallas_call leaves in its output array (`Gcn.scaledProduct`, `Gcn.hiddenProduct` of the
  arrays the call finds) is taken here as a hypothesis about the call's proof data at ANY entry contents.
-/
import proofs.«102439_j89807766159535_2_alg».proof.Proof.Gen.KernelIdeal.Frame
import proofs.«102439_j89807766159535_2_alg».proof.Proof.Stretches
import proofs.«102439_j89807766159535_2_alg».proof.Proof.Aggregate
import proofs.«102439_j89807766159535_2_alg».proof.Proof.Layers
import proofs.«102439_j89807766159535_2_alg».proof.Proof.Bridge
import proofs.«102439_j89807766159535_2_alg».proof.Proof.LibUnitReshapes
import proofs.«102439_j89807766159535_2_alg».proof.Proof.LibBroadcasts

set_option maxRecDepth 16384

noncomputable section

open scoped BigOperators

namespace Cert.KernelIdeal.Result

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- the source words of the launch memory's edge list (self loops appended) -/
abbrev srcWords : IVec Gcn.SE 32 :=
  Gcn.endpointWords ![0, 0] slices_S2x1600000_S1x1600000_0_0 shapeCasts_S1x1600000_S1600000
    concatenates_S1600000_S100000_S1700000_d0 (m ((c.tc : Thread nD τ).loc main_arg1))
/-- the target words -/
abbrev tgtWords : IVec Gcn.SE 32 :=
  Gcn.endpointWords ![1, 0] slices_S2x1600000_S1x1600000_1_0 shapeCasts_S1x1600000_S1600000
    concatenates_S1600000_S100000_S1700000_d0 (m ((c.tc : Thread nD τ).loc main_arg1))
/-- the degree factor of every node -/
abbrev dinv : FVec Ideal Gcn.SV .f32 :=
  Gcn.degInv bcast_S_S100000 bcast_S_S1700000 bcast_S1700000_S1700000x1_0 scatter_S100000_S1700000x1_S1700000_n_0_0_1 (tgtWords m c)
/-- the degree factor as the one-column array both calls read -/
abbrev dinvCol : FVec Ideal S100000x1 .f32 := shapeCast S100000x1 (dinv m c) shapeCasts_S100000_S100000x1

/-! ### The boundaries -/

-- the entry of the first call
theorem at3_v3 : W3 m ρ c (Proc.devRef .tc main_v3) = srcWords m c := Stretches.before_v3 _
theorem at3_v6 : W3 m ρ c (Proc.devRef .tc main_v6) = tgtWords m c := Stretches.before_v6 _
theorem at3_v15 : W3 m ρ c (Proc.devRef .tc main_v15) = dinvCol m c := Stretches.before_v15 _
theorem at3_v16 : W3 m ρ c (Proc.devRef .tc main_v16) = shapeCast S1x64 (m ((c.tc : Thread nD τ).loc main_arg3)) shapeCasts_S64_S1x64 :=
  Stretches.before_v16 _
theorem at3_v17 : W3 m ρ c (Proc.devRef .tc main_v17) = shapeCast S1x40 (m ((c.tc : Thread nD τ).loc main_arg5)) shapeCasts_S40_S1x40 :=
  Stretches.before_v17 _
theorem at3_arg0 : W3 m ρ c (Proc.devRef .tc main_arg0) = m ((c.tc : Thread nD τ).loc main_arg0) := Stretches.before_arg0 _
theorem at3_arg2 : W3 m ρ c (Proc.devRef .tc main_arg2) = m ((c.tc : Thread nD τ).loc main_arg2) := Stretches.before_arg2 _
theorem at3_arg4 : W3 m ρ c (Proc.devRef .tc main_arg4) = m ((c.tc : Thread nD τ).loc main_arg4) := Stretches.before_arg4 _

/-! ### What the calls leave, as hypotheses about their proof data at any entry contents -/

variable (hL1 : ∀ (V : (c : Dev nD) → (b : Ref sig .tc) → Buf (Elt Ideal) ((c : Thread nD τ).loc b)) (c : Dev nD),
    (dat0 (F := Ideal) V c).arrAt 3 cfg0.N = Gcn.scaledProduct (V c main_arg0) (V c main_arg2) (V c main_v15))
  (hL2 : ∀ (V : (c : Dev nD) → (b : Ref sig .tc) → Buf (Elt Ideal) ((c : Thread nD τ).loc b)) (c : Dev nD),
    (dat1 (F := Ideal) V c).arrAt 4 cfg1.N = Gcn.hiddenProduct (V c main_v28) (V c main_v15) (V c main_v16) (V c main_arg4))

/-- the rows of `x · W1` scaled by the degree factor: the first call's whole output -/
abbrev firstOut : FVec Ideal S100000x64 .f32 :=
  Gcn.scaledProduct (m ((c.tc : Thread nD τ).loc main_arg0)) (m ((c.tc : Thread nD τ).loc main_arg2)) (dinvCol m c)

-- the exit of the first call
include hL1 in
theorem at4_v18 : W4 m ρ c (Proc.devRef .tc main_v18) = firstOut m c := by
  refine (W4_arr m ρ c 3).trans ((hL1 (V3 m ρ) c).trans ?_)
  show Gcn.scaledProduct (W3 m ρ c (Proc.devRef .tc main_arg0)) (W3 m ρ c (Proc.devRef .tc main_arg2))
    (W3 m ρ c (Proc.devRef .tc main_v15)) = _
  rw [at3_arg0, at3_arg2, at3_v15]
theorem at4_v15 : W4 m ρ c (Proc.devRef .tc main_v15) = dinvCol m c :=
  ((W4_arr m ρ c 2).trans (((dat0 (V3 m ρ) c).arrAt_in 2 rfl _).trans (A_eq0 (V3 m ρ) c 2))).trans (at3_v15 m ρ c)
theorem at4_v3 : W4 m ρ c (Proc.devRef .tc main_v3) = srcWords m c := (W4_of_ne m ρ c main_v3 (by decide)).trans (at3_v3 m ρ c)
theorem at4_v6 : W4 m ρ c (Proc.devRef .tc main_v6) = tgtWords m c := (W4_of_ne m ρ c main_v6 (by decide)).trans (at3_v6 m ρ c)
theorem at4_v16 : W4 m ρ c (Proc.devRef .tc main_v16) = shapeCast S1x64 (m ((c.tc : Thread nD τ).loc main_arg3)) shapeCasts_S64_S1x64 :=
  (W4_of_ne m ρ c main_v16 (by decide)).trans (at3_v16 m ρ c)
theorem at4_v17 : W4 m ρ c (Proc.devRef .tc main_v17) = shapeCast S1x40 (m ((c.tc : Thread nD τ).loc main_arg5)) shapeCasts_S40_S1x40 :=
  (W4_of_ne m ρ c main_v17 (by decide)).trans (at3_v17 m ρ c)
theorem at4_arg4 : W4 m ρ c (Proc.devRef .tc main_arg4) = m ((c.tc : Thread nD τ).loc main_arg4) :=
  (W4_of_ne m ρ c main_arg4 (by decide)).trans (at3_arg4 m ρ c)

/-- the first call's rows gathered by source and summed by target -/
abbrev firstSum : FVec Ideal S100000x64 .f32 := Stretches.aggregate64 (firstOut m c) (srcWords m c) (tgtWords m c)

-- the entry of the second call
include hL1 in
theorem at5_v28 : W5 m ρ c (Proc.devRef .tc main_v28) = firstSum m c := by
  refine (Stretches.between_v28 (W4 m ρ c)).trans ?_
  rw [at4_v18 m ρ c hL1, at4_v3, at4_v6]
theorem at5_v15 : W5 m ρ c (Proc.devRef .tc main_v15) = dinvCol m c := (Stretches.between_v15 _).trans (at4_v15 m ρ c)
theorem at5_v3 : W5 m ρ c (Proc.devRef .tc main_v3) = srcWords m c := (Stretches.between_v3 _).trans (at4_v3 m ρ c)
theorem at5_v6 : W5 m ρ c (Proc.devRef .tc main_v6) = tgtWords m c := (Stretches.between_v6 _).trans (at4_v6 m ρ c)
theorem at5_v16 : W5 m ρ c (Proc.devRef .tc main_v16) = shapeCast S1x64 (m ((c.tc : Thread nD τ).loc main_arg3)) shapeCasts_S64_S1x64 :=
  (Stretches.between_v16 _).trans (at4_v16 m ρ c)
theorem at5_v17 : W5 m ρ c (Proc.devRef .tc main_v17) = shapeCast S1x40 (m ((c.tc : Thread nD τ).loc main_arg5)) shapeCasts_S40_S1x40 :=
  (Stretches.between_v17 _).trans (at4_v17 m ρ c)
theorem at5_arg4 : W5 m ρ c (Proc.devRef .tc main_arg4) = m ((c.tc : Thread nD τ).loc main_arg4) :=
  (Stretches.between_arg4 _).trans (at4_arg4 m ρ c)

/-- the second call's whole output -/
abbrev secondOut : FVec Ideal S100000x40 .f32 :=
  Gcn.hiddenProduct (firstSum m c) (dinvCol m c) (shapeCast S1x64 (m ((c.tc : Thread nD τ).loc main_arg3)) shapeCasts_S64_S1x64)
    (m ((c.tc : Thread nD τ).loc main_arg4))

-- the exit of the second call
include hL1 hL2 in
theorem at6_v29 : W6 m ρ c (Proc.devRef .tc main_v29) = secondOut m c := by
  refine (W6_arr m ρ c 4).trans ((hL2 (V5 m ρ) c).trans ?_)
  show Gcn.hiddenProduct (W5 m ρ c (Proc.devRef .tc main_v28)) (W5 m ρ c (Proc.devRef .tc main_v15))
    (W5 m ρ c (Proc.devRef .tc main_v16)) (W5 m ρ c (Proc.devRef .tc main_arg4)) = _
  rw [at5_v28 m ρ c hL1, at5_v15, at5_v16, at5_arg4]
theorem at6_v15 : W6 m ρ c (Proc.devRef .tc main_v15) = dinvCol m c :=
  ((W6_arr m ρ c 1).trans (((dat1 (V5 m ρ) c).arrAt_in 1 rfl _).trans (A_eq1 (V5 m ρ) c 1))).trans (at5_v15 m ρ c)
theorem at6_v3 : W6 m ρ c (Proc.devRef .tc main_v3) = srcWords m c := (W6_of_ne m ρ c main_v3 (by decide)).trans (at5_v3 m ρ c)
theorem at6_v6 : W6 m ρ c (Proc.devRef .tc main_v6) = tgtWords m c := (W6_of_ne m ρ c main_v6 (by decide)).trans (at5_v6 m ρ c)
theorem at6_v17 : W6 m ρ c (Proc.devRef .tc main_v17) = shapeCast S1x40 (m ((c.tc : Thread nD τ).loc main_arg5)) shapeCasts_S40_S1x40 :=
  (W6_of_ne m ρ c main_v17 (by decide)).trans (at5_v17 m ρ c)

-- the return
include hL1 hL2 in
theorem at7_v43 : W7 m ρ c (Proc.devRef .tc main_v43)
    = addf (mulf (broadcastInDim S100000x40 ![0, 1] bcast_S100000x1_S100000x40_0_1 (dinvCol m c))
          (Stretches.aggregate40 (secondOut m c) (srcWords m c) (tgtWords m c)))
        (broadcastInDim S100000x40 ![0, 1] bcast_S1x40_S100000x40_0_1
          (shapeCast S1x40 (m ((c.tc : Thread nD τ).loc main_arg5)) shapeCasts_S40_S1x40)) := by
  refine (Stretches.last_v43 (W6 m ρ c)).trans ?_
  rw [at6_v15, at6_v29 m ρ c hL1 hL2, at6_v3, at6_v6, at6_v17]

/-! ### The result at an entry -/

/-- the node whose row a gather reads for edge `e` -/
abbrev srcNode : Fin 1700000 → Fin 100000 := Gcn.node bcast_S_S1700000 bcast_S1700000_S1700000x1_0 (srcWords m c)
/-- the edges an accumulating scatter adds into a node -/
abbrev into : Fin 100000 → Finset (Fin 1700000) := Gcn.edgesInto bcast_S1700000_S1700000x1_0 (tgtWords m c)
/-- a node's degree factor -/
abbrev dAt : Fin 100000 → EReal := fun p => dinv m c (ix1 p)
/-- the arguments as functions of coordinates -/
abbrev xAt : Fin 100000 → Fin 128 → EReal := fun p k => m ((c.tc : Thread nD τ).loc main_arg0) (ix2 p k)
abbrev w1At : Fin 128 → Fin 64 → EReal := fun k j => m ((c.tc : Thread nD τ).loc main_arg2) (ix2 k j)
abbrev b1At : Fin 64 → EReal := fun j => m ((c.tc : Thread nD τ).loc main_arg3) (ix1 j)
abbrev w2At : Fin 64 → Fin 40 → EReal := fun j j' => m ((c.tc : Thread nD τ).loc main_arg4) (ix2 j j')
abbrev b2At : Fin 40 → EReal := fun j' => m ((c.tc : Thread nD τ).loc main_arg5) (ix1 j')

theorem dinvCol_apply (p : Fin 100000) : dinvCol m c (ix2 p (0 : Fin 1)) = dAt m c p :=
  UnitReshapes.asColumn_apply shapeCasts_S100000_S100000x1 (dinv m c) p

/-- the first call's output: row `p` of `x · W1` times the node's factor -/
theorem firstOut_apply (p : Fin 100000) (j : Fin 64) :
    firstOut m c (ix2 p j) = Gcn.lin1 (xAt m c) (w1At m c) p j * dAt m c p := by
  show Gcn.scaledProductAt _ _ _ p j = _
  unfold Gcn.scaledProductAt Gcn.lin1
  rw [dinvCol_apply]

/-- gathered by source and summed by target -/
theorem firstSum_apply (p : Fin 100000) (j : Fin 64) :
    firstSum m c (ix2 p j) = Gcn.kerAgg1 (into m c) (srcNode m c) (dAt m c) (xAt m c) (w1At m c) p j := by
  unfold Gcn.kerAgg1
  refine (Gcn.aggregate_apply scatter_S100000x64_S1700000x1_S1700000x64_1_0_0_1 rfl rfl rfl rfl
    gather_S100000x64_S1700000x1_S1700000x64_1_0_n_n_0_1_164 rfl rfl rfl rfl rfl rfl rfl
    bcast_S_S100000x64 bcast_S_S1700000 bcast_S1700000_S1700000x1_0 (firstOut m c) (srcWords m c) (tgtWords m c) p j).trans ?_
  refine congrArg (fun s => (0 : EReal) + s) (Finset.sum_congr rfl fun e _ => ?_)
  exact firstOut_apply m c _ j

/-- the second call's output -/
theorem secondOut_apply (p : Fin 100000) (j' : Fin 40) :
    secondOut m c (ix2 p j')
      = Gcn.kerLin2 (into m c) (srcNode m c) (dAt m c) (xAt m c) (w1At m c) (b1At m c) (w2At m c) p j' := by
  show Gcn.hiddenProductAt _ _ _ _ p j' = _
  unfold Gcn.hiddenProductAt Gcn.kerLin2 Gcn.kerHid
  rw [dinvCol_apply]
  refine congrArg (fun s => s * dAt m c p) (Finset.sum_congr rfl fun j _ => ?_)
  rw [firstSum_apply, UnitReshapes.asRow_apply]

include hL1 hL2 in
/-- THE IDEALIZED KERNEL'S RESULT AT NODE `v`, FEATURE `j'`. -/
theorem result_apply (v : Fin 100000) (j' : Fin 40) :
    W7 m ρ c (Proc.devRef .tc main_v43) (ix2 v j')
      = Gcn.kerOut (into m c) (srcNode m c) (dAt m c) (xAt m c) (w1At m c) (b1At m c) (w2At m c) (b2At m c) v j' := by
  rw [at7_v43 m ρ c hL1 hL2, addf_apply, mulf_apply, Broadcasts.widen_apply, Broadcasts.repeat_apply, dinvCol_apply,
    UnitReshapes.asRow_apply]
  unfold Gcn.kerOut
  refine congrArg (fun s => dAt m c v * s + b2At m c j') ?_
  refine (Gcn.aggregate_apply scatter_S100000x40_S1700000x1_S1700000x40_1_0_0_1 rfl rfl rfl rfl
    gather_S100000x40_S1700000x1_S1700000x40_1_0_n_n_0_1_140 rfl rfl rfl rfl rfl rfl rfl
    bcast_S_S100000x40 bcast_S_S1700000 bcast_S1700000_S1700000x1_0 (secondOut m c) (srcWords m c) (tgtWords m c) v j').trans ?_
  refine congrArg (fun s => (0 : EReal) + s) (Finset.sum_congr rfl fun e _ => ?_)
  exact secondOut_apply m c _ j'

end Cert.KernelIdeal.Result

end
-- ==== Proof.LibPlainMatmul.lean ====
import Idealize.ShloMosaic.PureOps.Ideal.Laws
import Idealize.ShloMosaic.Lib.ValueLayout
import Idealize.ShloMosaic.Lib.StackMember

/-!
A plain matrix product (rows by contraction, times contraction by columns) accumulated into the zero
matrix, read at one entry at the ideal values: the sum over the contracted coordinate of the products
of the two operands' entries.  Also: a record of dimension numbers with the plain product's lists IS
the plain product's record, and the bit pattern of the float `1.0` denotes the extended real `1`.
-/

noncomputable section

namespace Cert.Proof.LibPlainMatmul

open Idealize.ShloMosaic Idealize.ShloMosaic.ValueIdx

/-- The plain `m × k` by `k × n` product into the zero accumulator, at entry `(a, b)`, is
    `∑ c, A (a, c) * B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The bit pattern of the single-precision `1.0` denotes the extended real `1`. -/
theorem ofBits_one_f32 : Ideal.ofBits .f32 0x3F800000#32 = 1 :=
  IdealRules.sign_bit.ideal_onePat .f32

end Cert.Proof.LibPlainMatmul

end
-- ==== Proof.LibColumnAndUnitAxis.lean ====
import Idealize.ShloMosaic.Lib.ValueIdx
import Idealize.ShloMosaic.Lib.Pipeline.Value

/-!
Four layout operations read at an index given by coordinates.

A column `[a, 1]` broadcast to `[a, b]` reads, at `(p, c)`, the column's entry `(p, 0)`. A rank-3 array with a
middle axis of extent one, `[a, 1, b]`, seen as the matrix `[a, b]` reads, at `(p, c)`, the entry `(p, 0, c)`; and the
matrix seen as `[a, 1, b]` reads, at `(p, 0, c)`, the entry `(p, c)`: a reshape keeps the row-major position, and the
unit axis contributes nothing to it. A vector `[a]` seen as the column `[a, 1]` reads, at `(p, 0)`, its entry `p`.
-/

noncomputable section

namespace Cert.Proof.LibColumnAndUnitAxis

open Idealize.ShloMosaic Idealize.ShloMosaic.ValueIdx

variable {α : Type}

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array seen as the matrix `[a, b]` reads, at `(p, c)`, the entry `(p, 0, c)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (c : Fin b) :
    shapeCast ⟨2, ![a, b]⟩ x h (ix2 p c) = x (ix3 p (0 : Fin 1) c) :=
  shapeCast_apply x h _ _ (by
    rw [Shape.rowMajor_val_three, Shape.rowMajor_val_two]
    show (p.val * 1 + 0) * b + c.val = p.val * b + c.val
    rw [Nat.mul_one, Nat.add_zero])

/-- An `[a, b]` matrix seen as `[a, 1, b]` reads, at `(p, 0, c)`, the entry `(p, c)`. -/
theorem shapeCast_ab_a1b_apply {a b : ℕ} (x : (⟨2, ![a, b]⟩ : Shape).Idx → α)
    (h : (⟨2, ![a, b]⟩ : Shape).ShapeCasts ⟨3, ![a, 1, b]⟩) (p : Fin a) (c : Fin b) :
    shapeCast ⟨3, ![a, 1, b]⟩ x h (ix3 p (0 : Fin 1) c) = x (ix2 p c) :=
  shapeCast_apply x h _ _ (by
    rw [Shape.rowMajor_val_three, Shape.rowMajor_val_two]
    show p.val * b + c.val = (p.val * 1 + 0) * b + c.val
    rw [Nat.mul_one, Nat.add_zero])

/-- An `[a]` vector seen as the column `[a, 1]` reads, at `(p, u)`, the entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Proof.LibColumnAndUnitAxis

end
-- ==== Proof.Region0.lean ====
/-
  The first pallas_call's output array, whole.

  The call walks the 100 000 rows in 20 blocks of 5 000.  At a block it multiplies the 5 000 x 128 block of `x` by the
  whole 128 x 64 matrix `W1` and scales every row of the product by that row's entry of the one-column array `d`.  Entry
  `(r, j)` of what it leaves in the block is therefore `(∑ k, x (r, k) * W1 (k, j)) * d (r, 0)` over the block's rows, and
  row `r` of block `t` is row `5000 t + r` of the arrays.  Row `p` of `Gcn.scaledProduct` reads row `p` of `x` and of `d`
  only, so each block written back is the restriction of that one whole-array function to its 5 000 rows; the 20 blocks
  cover all 100 000 rows, hence the array ends holding `Gcn.scaledProduct` of the arrays the call was entered with.
-/
import proofs.«102439_j89807766159535_2_alg».proof.Proof.Gen.KernelIdeal.Frame
import proofs.«102439_j89807766159535_2_alg».proof.Proof.Layers
import proofs.«102439_j89807766159535_2_alg».proof.Proof.LibPlainMatmul
import proofs.«102439_j89807766159535_2_alg».proof.Proof.LibColumnAndUnitAxis
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat)

/-- The body reads and writes its blocks whole: the offsets `(0, 0)` are the zero function. -/
theorem zeroOffsets : (![0, 0] : Fin 2 → Nat) = fun _ => 0 := funext fun a => by fin_cases a <;> rfl

/-- Entry `(r, j)` of the block the body leaves: row `r` of the block of `x` times column `j` of `W1`, scaled by the
    block of `d` at row `r`.  On the extended reals a change of float format is the identity, the product is accumulated
    onto zero, and the column `[5000, 1]` is repeated along the 64 columns. -/
theorem block_entry (x0 : Vec Ideal S5000x128 .f32) (x1 : Vec Ideal S128x64 .f32) (x2 : Vec Ideal S5000x1 .f32)
    (r : Fin 5000) (j : Fin 64) :
    out0_3 (F := Ideal) x0 x1 x2 (ix2 r j)
      = (∑ k : Fin 128, x0 (ix2 r k) * x1 (ix2 k j)) * x2 (ix2 r (0 : Fin 1)) := by
  unfold out0_3
  rw [View.canon_unit_zero zeroOffsets]
  simp only [View.ld_unit_zero (S := S5000x128) zeroOffsets, View.ld_unit_zero (S := S128x64) zeroOffsets,
    View.ld_unit_zero (S := S5000x1) zeroOffsets]
  unfold k0_pay1
  refine (mulf_apply _ _ _).trans ?_
  refine congrArg₂ (· * ·) ?_ ?_
  · exact Cert.Proof.LibPlainMatmul.matmul_plain_zero_apply none (truncf .bf16 x0 bitsLt_bf16_f32)
      (truncf .bf16 x1 bitsLt_bf16_f32) r j
  · rw [shapeCast_self]
    exact Cert.Proof.LibColumnAndUnitAxis.broadcastTo_a1_ab_apply x2 broadcasts_S5000x1_S5000x64 r j

/-- Where each operand's block starts at grid point `t` (checked at each of the 20 points): the blocks of `x`, of `d` and of
    the output are the `t`-th blocks of 5 000 rows from column 0, and `W1` is taken whole. -/
theorem block_starts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section Blocks

-- the contents of every buffer when the call is entered
variable (V : (c : Dev nD) → (b : Ref sig .tc) → Buf (Elt Ideal) ((c : Thread nD τ).loc b))

/-- Row `r` of the block of `x` at point `t` is row `5000 t + r` of `x`. -/
theorem xBlock_apply (c : Dev nD) (t : Fin cfg0.N) (r : Fin 5000) (k : Fin 128) (p : Fin 100000)
    (hp : p.val = 5000 * t.val + r.val) :
    (iblk0 (F := Ideal) V c 0 t : Vec Ideal S5000x128 .f32) (ix2 r k)
      = (V c main_arg0 : S100000x128.Idx → EReal) (ix2 p k) := by
  obtain ⟨e0, e1, -⟩ := block_starts t
  unfold iblk0
  rw [View.read_apply]
  show V c main_arg0 _ = V c main_arg0 _
  congr 1
  funext a
  apply Fin.ext
  match a with
  | ⟨0, _⟩ => show win0_0.index t (0 : Fin 2) * 5000 + 1 * r.val = p.val; rw [e0, hp]; omega
  | ⟨1, _⟩ => show win0_0.index t (1 : Fin 2) * 128 + 1 * k.val = k.val; rw [e1]; omega

/-- The block of `W1` at every point is `W1`. -/
theorem wBlock_apply (c : Dev nD) (t : Fin cfg0.N) (k : Fin 128) (j : Fin 64) :
    (iblk0 (F := Ideal) V c 1 t : Vec Ideal S128x64 .f32) (ix2 k j)
      = (V c main_arg2 : S128x64.Idx → EReal) (ix2 k j) := by
  obtain ⟨-, -, e0, e1, -⟩ := block_starts t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e0]; omega
  | ⟨1, _⟩ => show win0_1.index t (1 : Fin 2) * 64 + 1 * j.val = j.val; rw [e1]; omega

/-- Row `r` of the block of `d` at point `t` is row `5000 t + r` of `d`. -/
theorem dBlock_apply (c : Dev nD) (t : Fin cfg0.N) (r : Fin 5000) (p : Fin 100000)
    (hp : p.val = 5000 * t.val + r.val) :
    (iblk0 (F := Ideal) V c 2 t : Vec Ideal S5000x1 .f32) (ix2 r (0 : Fin 1))
      = (V c main_v15 : S100000x1.Idx → EReal) (ix2 p (0 : Fin 1)) := by
  obtain ⟨-, -, -, -, e0, e1, -⟩ := block_starts t
  unfold iblk0
  rw [View.read_apply]
  show V c main_v15 _ = V c main_v15 _
  congr 1
  funext a
  apply Fin.ext
  match a with
  | ⟨0, _⟩ => show win0_2.index t (0 : Fin 2) * 5000 + 1 * r.val = p.val; rw [e0, hp]; omega
  | ⟨1, _⟩ => show win0_2.index t (1 : Fin 2) * 1 + 1 * 0 = 0; rw [e1]

/-- What the body leaves at point `t`, at the block's entry `y`, is the scaled product of the whole arrays at row
    `5000 t + y 0` and column `y 1`: row `p` of the product reads row `p` of `x` and of `d` only. -/
theorem block_rows (c : Dev nD) (t : Fin cfg0.N) (y : S5000x64.Idx) (i : S100000x64.Idx)
    (h0 : (i 0).val = 5000 * t.val + (y 0).val) (h1 : (i 1).val = (y 1).val) :
    out0_3 (F := Ideal) (iblk0 V c 0 t) (iblk0 V c 1 t) (iblk0 V c 2 t) y
      = Gcn.scaledProduct (V c main_arg0) (V c main_arg2) (V c main_v15) i := by
  obtain ⟨r, j, rfl⟩ : ∃ (r : Fin 5000) (j : Fin 64), y = ix2 r j := ⟨y 0, y 1, eq_ix2 y⟩
  obtain ⟨p, j', rfl⟩ : ∃ (p : Fin 100000) (j' : Fin 64), i = ix2 p j' := ⟨i 0, i 1, eq_ix2 i⟩
  obtain rfl : j' = j := Fin.ext h1
  have hp : p.val = 5000 * t.val + r.val := h0
  refine (block_entry (iblk0 V c 0 t) (iblk0 V c 1 t) (iblk0 V c 2 t) r j').trans ?_
  rw [Gcn.scaledProduct_apply]
  unfold Gcn.scaledProductAt
  refine congrArg₂ (· * ·) (Finset.sum_congr rfl fun k _ => congrArg₂ (· * ·) ?_ ?_) ?_
  · exact xBlock_apply V c t r k p hp
  · exact wBlock_apply V c t k j'
  · exact dBlock_apply V c t r p hp

/-- What point `t` writes back to the output array is block `t` of the scaled product of the arrays the call was entered
    with. -/
theorem flushed_eq (c : Dev nD) (t : Fin cfg0.N) :
    (dat0 (F := Ideal) V c).flushed 3 t
      = ((cfg0.win 3).blk t).view.read (Elt Ideal) (Gcn.scaledProduct (V c main_arg0) (V c main_arg2) (V c main_v15)) := by
  show (cfg0.win 3).cut (grid0.coords t) ((dat0 V c).after 3 t) = _
  rw [after0_3]
  obtain ⟨-, -, -, -, -, -, e0, e1⟩ := block_starts t
  funext y
  refine block_rows V c t y (((cfg0.win 3).blk t).view.emb y) ?_ ?_
  · show win0_3.index t (0 : Fin 2) * 5000 + 1 * (y 0).val = 5000 * t.val + (y 0).val; rw [e0]; omega
  · show win0_3.index t (1 : Fin 2) * 64 + 1 * (y 1).val = (y 1).val; rw [e1]; omega

/-- An index of the output array is in point `t`'s block iff each coordinate is in the block's range on its axis. -/
theorem mem_blk (t : Fin cfg0.N) (i : S100000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v18).slice (win0_3.rect t)).set ↔ _
  rw [View.set_slice_whole, Rect.mem_set_unit]
  exact Iff.rfl

/-- Every entry of the output array lies in some point's block: row `p` in the block of point `p / 5000`. -/
theorem covered (i : S100000x64.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 64 := (i 1).isLt
  let t : Fin cfg0.N := ⟨(i 0).val / 5000, by rw [hN]; omega⟩
  have ht : t.val = (i 0).val / 5000 := rfl
  obtain ⟨-, -, -, -, -, -, e0, e1⟩ := block_starts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 64 ≤ (i 1).val ∧ (i 1).val < win0_3.index t (1 : Fin 2) * 64 + 64; rw [e1]; omega

/-- The first call's output array after the call: the scaled product of the arrays the call was entered with. -/
theorem result (c : Dev nD) :
    (dat0 (F := Ideal) V c).arrAt 3 cfg0.N = Gcn.scaledProduct (V c main_arg0) (V c main_arg2) (V c main_v15) :=
  (dat0 (F := Ideal) V c).arrAt_eq_of_cover 3 (Gcn.scaledProduct (V c main_arg0) (V c main_arg2) (V c main_v15))
    (fun t _ => flushed_eq V c t) covered

end Blocks

end Cert.KernelIdeal.Layer1

end
-- ==== Proof.Region1.lean ====
/-
  The second pallas_call's output array, whole.

  The call walks the 100 000 rows in 20 blocks of 5 000.  At a block it scales every row of the 5 000 x 64 block of the
  aggregated features `a` by that row's entry of the one-column array `d`, adds the one-row array `b` to every row and
  applies the rectifier; it multiplies these hidden activations by the whole 64 x 40 matrix `W2` and scales every row of
  the product by the same entry of `d`.  Entry `(r, j')` of what it leaves in the block is therefore
  `(∑ j, max (a (r, j) * d (r, 0) + b (0, j)) 0 * W2 (j, j')) * d (r, 0)` over the block's rows, and row `r` of block `t` is
  row `5000 t + r` of the arrays.  Row `p` of `Gcn.hiddenProduct` reads row `p` of `a` and of `d` only, so each block
  written back is the restriction of that one whole-array function to its 5 000 rows; the 20 blocks cover all 100 000
  rows, hence the array ends holding `Gcn.hiddenProduct` of the arrays the call was entered with.
-/
import proofs.«102439_j89807766159535_2_alg».proof.Proof.Gen.KernelIdeal.Frame
import proofs.«102439_j89807766159535_2_alg».proof.Proof.Layers
import proofs.«102439_j89807766159535_2_alg».proof.Proof.LibPlainMatmul
import proofs.«102439_j89807766159535_2_alg».proof.Proof.LibColumnAndUnitAxis
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer2

open Cert.KernelIdeal Cert.KernelIdeal.Gen
open Idealize.ShloMosaic Idealize.ShloMosaic.TcCoe Idealize.SL.Sem Idealize.ShloMosaic.ValueIdx
open Idealize.ShloMosaic.Pipeline (Dat)

/-- The body reads and writes its blocks whole: the offsets `(0, 0)` are the zero function. -/
theorem zeroOffsets : (![0, 0] : Fin 2 → Nat) = fun _ => 0 := funext fun a => by fin_cases a <;> rfl

/-- The body's matrix product, accumulated onto zero, at entry `(r, j')`: the sum over the 64 hidden columns. -/
theorem matmul_entry (A : FVec Ideal S5000x64 .bf16) (B : FVec Ideal S64x40 .bf16) (r : Fin 5000) (j' : Fin 40) :
    matmul (F := Ideal) dot_S5000x64_S64x40_S5000x40_1_0_0_1_n_n none A B
        (constant (F := Ideal) S5000x40 .f32 0x00000000#32) (ix2 r j')
      = ∑ j : Fin 64, A (ix2 r j) * B (ix2 j j') :=
  Cert.Proof.LibPlainMatmul.matmul_plain_zero_apply none A B r j'

/-- Entry `(r, j')` of the block the body leaves.  The hidden activation at `(r, j)` is `max (a (r, j) * d (r, 0) + b (0, j)) 0`:
    the column `d` is repeated along the 64 columns, the row `b` along the 5 000 rows, and the rectifier compares with the
    float zero, which is the real zero.  Row `r` of the activations times column `j'` of `W2`, accumulated onto zero, is then
    scaled by `d (r, 0)` again.  A change of float format is the identity on the extended reals. -/
theorem block_entry (x0 : Vec Ideal S5000x64 .f32) (x1 : Vec Ideal S5000x1 .f32) (x2 : Vec Ideal S1x64 .f32)
    (x3 : Vec Ideal S64x40 .f32) (r : Fin 5000) (j' : Fin 40) :
    out1_4 (F := Ideal) x0 x1 x2 x3 (ix2 r j')
      = (∑ j : Fin 64, max (x0 (ix2 r j) * x1 (ix2 r (0 : Fin 1)) + x2 (ix2 (0 : Fin 1) j)) 0 * x3 (ix2 j j'))
          * x1 (ix2 r (0 : Fin 1)) := by
  unfold out1_4
  rw [View.canon_unit_zero zeroOffsets]
  simp only [View.ld_unit_zero (S := S5000x64) zeroOffsets, View.ld_unit_zero (S := S5000x1) zeroOffsets,
    View.ld_unit_zero (S := S1x64) zeroOffsets, View.ld_unit_zero (S := S64x40) zeroOffsets]
  unfold k1_pay1
  refine (mulf_apply _ _ _).trans ?_
  refine congrArg₂ (· * ·) ?_ ?_
  · refine (matmul_entry _ _ r j').trans ?_
    refine Finset.sum_congr rfl fun j _ => congrArg₂ (· * ·) ?_ rfl
    simp only [shapeCast_self]
    refine (truncf_apply (ψ := .bf16) _ bitsLt_bf16_f32 (ix2 r j)).trans ?_
    refine (maximumf_apply _ _ _).trans ?_
    refine congrArg₂ max ?_ ?_
    · refine (addf_apply _ _ _).trans ?_
      refine congrArg₂ (· + ·) ?_ ?_
      · refine (mulf_apply _ _ _).trans ?_
        refine congrArg₂ (· * ·) rfl ?_
        exact Cert.Proof.LibColumnAndUnitAxis.broadcastTo_a1_ab_apply x1 broadcasts_S5000x1_S5000x64 r j
      · exact broadcastTo_1b_ab_apply x2 broadcasts_S1x64_S5000x64 r j
    · exact Ideal.ofBits_zero_f32
  · rw [shapeCast_self]
    exact Cert.Proof.LibColumnAndUnitAxis.broadcastTo_a1_ab_apply x1 broadcasts_S5000x1_S5000x40 r j'

/-- Where each operand's block starts at grid point `t` (checked at each of the 20 points): the blocks of `a`, of `d` and of
    the output are the `t`-th blocks of 5 000 rows from column 0, and `b` and `W2` are taken whole. -/
theorem block_starts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Blocks

-- the contents of every buffer when the call is entered
variable (V : (c : Dev nD) → (b : Ref sig .tc) → Buf (Elt Ideal) ((c : Thread nD τ).loc b))

/-- Row `r` of the block of `a` at point `t` is row `5000 t + r` of `a`. -/
theorem aBlock_apply (c : Dev nD) (t : Fin cfg1.N) (r : Fin 5000) (j : Fin 64) (p : Fin 100000)
    (hp : p.val = 5000 * t.val + r.val) :
    (iblk1 (F := Ideal) V c 0 t : Vec Ideal S5000x64 .f32) (ix2 r j)
      = (V c main_v28 : S100000x64.Idx → EReal) (ix2 p j) := by
  obtain ⟨e0, e1, -⟩ := block_starts t
  unfold iblk1
  rw [View.read_apply]
  show V c main_v28 _ = V c main_v28 _
  congr 1
  funext a
  apply Fin.ext
  match a with
  | ⟨0, _⟩ => show win1_0.index t (0 : Fin 2) * 5000 + 1 * r.val = p.val; rw [e0, hp]; omega
  | ⟨1, _⟩ => show win1_0.index t (1 : Fin 2) * 64 + 1 * j.val = j.val; rw [e1]; omega

/-- Row `r` of the block of `d` at point `t` is row `5000 t + r` of `d`. -/
theorem dBlock_apply (c : Dev nD) (t : Fin cfg1.N) (r : Fin 5000) (p : Fin 100000)
    (hp : p.val = 5000 * t.val + r.val) :
    (iblk1 (F := Ideal) V c 1 t : Vec Ideal S5000x1 .f32) (ix2 r (0 : Fin 1))
      = (V c main_v15 : S100000x1.Idx → EReal) (ix2 p (0 : Fin 1)) := by
  obtain ⟨-, -, e0, e1, -⟩ := block_starts t
  unfold iblk1
  rw [View.read_apply]
  show V c main_v15 _ = V c main_v15 _
  congr 1
  funext a
  apply Fin.ext
  match a with
  | ⟨0, _⟩ => show win1_1.index t (0 : Fin 2) * 5000 + 1 * r.val = p.val; rw [e0, hp]; omega
  | ⟨1, _⟩ => show win1_1.index t (1 : Fin 2) * 1 + 1 * 0 = 0; rw [e1]

/-- The block of `b` at every point is `b`. -/
theorem bBlock_apply (c : Dev nD) (t : Fin cfg1.N) (j : Fin 64) :
    (iblk1 (F := Ideal) V c 2 t : Vec Ideal S1x64 .f32) (ix2 (0 : Fin 1) j)
      = (V c main_v16 : S1x64.Idx → EReal) (ix2 (0 : Fin 1) j) := by
  obtain ⟨-, -, -, -, e0, e1, -⟩ := block_starts t
  unfold iblk1
  rw [View.read_apply]
  show V c main_v16 _ = V c main_v16 _
  congr 1
  funext a
  apply Fin.ext
  match a with
  | ⟨0, _⟩ => show win1_2.index t (0 : Fin 2) * 1 + 1 * 0 = 0; rw [e0]
  | ⟨1, _⟩ => show win1_2.index t (1 : Fin 2) * 64 + 1 * j.val = j.val; rw [e1]; omega

/-- The block of `W2` at every point is `W2`. -/
theorem wBlock_apply (c : Dev nD) (t : Fin cfg1.N) (j : Fin 64) (j' : Fin 40) :
    (iblk1 (F := Ideal) V c 3 t : Vec Ideal S64x40 .f32) (ix2 j j')
      = (V c main_arg4 : S64x40.Idx → EReal) (ix2 j j') := by
  obtain ⟨-, -, -, -, -, -, e0, e1, -⟩ := block_starts t
  unfold iblk1
  rw [View.read_apply]
  show V c main_arg4 _ = V c main_arg4 _
  congr 1
  funext a
  apply Fin.ext
  match a with
  | ⟨0, _⟩ => show win1_3.index t (0 : Fin 2) * 64 + 1 * j.val = j.val; rw [e0]; omega
  | ⟨1, _⟩ => show win1_3.index t (1 : Fin 2) * 40 + 1 * j'.val = j'.val; rw [e1]; omega

/-- What the body leaves at point `t`, at the block's entry `y`, is the hidden product of the whole arrays at row
    `5000 t + y 0` and column `y 1`: row `p` of the product reads row `p` of `a` and of `d` only. -/
theorem block_rows (c : Dev nD) (t : Fin cfg1.N) (y : S5000x40.Idx) (i : S100000x40.Idx)
    (h0 : (i 0).val = 5000 * t.val + (y 0).val) (h1 : (i 1).val = (y 1).val) :
    out1_4 (F := Ideal) (iblk1 V c 0 t) (iblk1 V c 1 t) (iblk1 V c 2 t) (iblk1 V c 3 t) y
      = Gcn.hiddenProduct (V c main_v28) (V c main_v15) (V c main_v16) (V c main_arg4) i := by
  obtain ⟨r, j', rfl⟩ : ∃ (r : Fin 5000) (j' : Fin 40), y = ix2 r j' := ⟨y 0, y 1, eq_ix2 y⟩
  obtain ⟨p, j'', rfl⟩ : ∃ (p : Fin 100000) (j'' : Fin 40), i = ix2 p j'' := ⟨i 0, i 1, eq_ix2 i⟩
  obtain rfl : j'' = j' := Fin.ext h1
  have hp : p.val = 5000 * t.val + r.val := h0
  refine (block_entry (iblk1 V c 0 t) (iblk1 V c 1 t) (iblk1 V c 2 t) (iblk1 V c 3 t) r j'').trans ?_
  rw [Gcn.hiddenProduct_apply]
  unfold Gcn.hiddenProductAt
  refine congrArg₂ (· * ·) (Finset.sum_congr rfl fun j _ => congrArg₂ (· * ·) ?_ ?_) ?_
  · refine congrArg₂ max (congrArg₂ (· + ·) (congrArg₂ (· * ·) ?_ ?_) ?_) rfl
    · exact aBlock_apply V c t r j p hp
    · exact dBlock_apply V c t r p hp
    · exact bBlock_apply V c t j
  · exact wBlock_apply V c t j j''
  · exact dBlock_apply V c t r p hp

/-- What point `t` writes back to the output array is block `t` of the hidden product of the arrays the call was entered
    with. -/
theorem flushed_eq (c : Dev nD) (t : Fin cfg1.N) :
    (dat1 (F := Ideal) V c).flushed 4 t
      = ((cfg1.win 4).blk t).view.read (Elt Ideal)
          (Gcn.hiddenProduct (V c main_v28) (V c main_v15) (V c main_v16) (V c main_arg4)) := by
  show (cfg1.win 4).cut (grid1.coords t) ((dat1 V c).after 4 t) = _
  rw [after1_4]
  obtain ⟨-, -, -, -, -, -, -, -, e0, e1⟩ := block_starts t
  funext y
  refine block_rows V c t y (((cfg1.win 4).blk t).view.emb y) ?_ ?_
  · show win1_4.index t (0 : Fin 2) * 5000 + 1 * (y 0).val = 5000 * t.val + (y 0).val; rw [e0]; omega
  · show win1_4.index t (1 : Fin 2) * 40 + 1 * (y 1).val = (y 1).val; rw [e1]; omega

/-- An index of the output array is in point `t`'s block iff each coordinate is in the block's range on its axis. -/
theorem mem_blk (t : Fin cfg1.N) (i : S100000x40.Idx) :
    i ∈ ((cfg1.win 4).blk t).view.set
      ↔ ∀ a : Fin 2, win1_4.index t a * S5000x40.size a ≤ (i a).val ∧ (i a).val < win1_4.index t a * S5000x40.size a + S5000x40.size a := by
  show i ∈ ((View.whole main_v29).slice (win1_4.rect t)).set ↔ _
  rw [View.set_slice_whole, Rect.mem_set_unit]
  exact Iff.rfl

/-- Every entry of the output array lies in some point's block: row `p` in the block of point `p / 5000`. -/
theorem covered (i : S100000x40.Idx) :
    ∃ t : Fin cfg1.N, (cfg1.win 4).flush t = true ∧ i ∈ ((cfg1.win 4).blk t).view.set := by
  have hN : cfg1.N = 20 := N_1
  have hi0 : (i 0).val < 100000 := (i 0).isLt
  have hi1 : (i 1).val < 40 := (i 1).isLt
  let t : Fin cfg1.N := ⟨(i 0).val / 5000, by rw [hN]; omega⟩
  have ht : t.val = (i 0).val / 5000 := rfl
  obtain ⟨-, -, -, -, -, -, -, -, e0, e1⟩ := block_starts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 40 ≤ (i 1).val ∧ (i 1).val < win1_4.index t (1 : Fin 2) * 40 + 40; rw [e1]; omega

/-- The second call's output array after the call: the hidden product of the arrays the call was entered with. -/
theorem result (c : Dev nD) :
    (dat1 (F := Ideal) V c).arrAt 4 cfg1.N
      = Gcn.hiddenProduct (V c main_v28) (V c main_v15) (V c main_v16) (V c main_arg4) :=
  (dat1 (F := Ideal) V c).arrAt_eq_of_cover 4
    (Gcn.hiddenProduct (V c main_v28) (V c main_v15) (V c main_v16) (V c main_arg4))
    (fun t _ => flushed_eq V c t) covered

end Blocks

end Cert.KernelIdeal.Layer2

end
-- ==== Proof.RefValue.lean ====
/-
  The reference program's result read at one entry.

  The reference builds, from the edge list, the two endpoint rows with the self loops appended, the inverse square root of
  the degrees, and for every edge the product of the factors of its two endpoints.  One layer of the convolution then
  gathers the rows of a product `h · W` at the edges' sources, scales every gathered row by its edge's factor, adds the
  scaled rows into the edges' targets (onto zeros) and adds the bias.  Read at node `v`, feature `j`, a layer is

      (0 + ∑ over the edges e scattered onto v of  (h · W)[source e, j] · (D (source e) · D (target e)))  +  b j ,

  where the source and target of an edge are the nodes a gather reads for its two words.  The program is two such layers
  with a rectifier between them; this file reads it so, entry by entry.
-/
import proofs.«102439_j89807766159535_2_alg».proof.Proof.RefReadPatched
import proofs.«102439_j89807766159535_2_alg».proof.Proof.Graph
import proofs.«102439_j89807766159535_2_alg».proof.Proof.Bridge
import proofs.«102439_j89807766159535_2_alg».proof.Proof.LibRowOps
import proofs.«102439_j89807766159535_2_alg».proof.Proof.LibHostScatter
import proofs.«102439_j89807766159535_2_alg».proof.Proof.LibBroadcasts

noncomputable section

open scoped BigOperators

namespace Cert.ReferenceIdeal.RefValue

open Cert.ReferenceIdeal Cert.ReferenceIdeal.Gen Cert.ReferenceIdeal.ReadP Idealize.ShloMosaic Idealize.ShloMosaic.ValueIdx

/-! ## The operations that are not pointwise, over variables -/

/-- The product of two gathers of one vector, at edge `e`: the vector's entries at the two nodes the edge's words name. -/
theorem gatherPair_apply {n m : Nat} (hn : 0 < n)
    (gd : GatherDims (⟨1, ![n]⟩ : Shape) (⟨2, ![m, 1]⟩ : Shape) (⟨1, ![m]⟩ : Shape))
    (ho : gd.offsetDims = []) (hc : gd.collapsedSliceDims = [0]) (hob : gd.operandBatchingDims = [])
    (hsb : gd.startIndicesBatchingDims = []) (hm : gd.startIndexMap = [0]) (hv : gd.indexVectorDim = 1)
    (hs : gd.sliceSizes = ![1])
    (dv : FVec Ideal (⟨1, ![n]⟩ : Shape) .f32) (ws wc : IVec (⟨2, ![m, 1]⟩ : Shape) 32) (e : Fin m) :
    mulf (Host.gather gd dv ws) (Host.gather gd dv wc) (ix1 e)
      = dv (ix1 (RowOps.clampRow n hn (ws (ix2 e (0 : Fin 1)))))
          * dv (ix1 (RowOps.clampRow n hn (wc (ix2 e (0 : Fin 1))))) := by
  rw [mulf_apply, RowOps.gather_vec_apply gd ho hc hob hsb hm hv hs hn,
    RowOps.gather_vec_apply gd ho hc hob hsb hm hv hs hn]

/-- One layer's aggregation at node `v`, feature `j`: the rows of `H` gathered at the source words, each scaled by its
    edge's factor, added onto zeros at the target words, plus the bias. -/
theorem layer_apply {n m q : Nat} (hn : 0 < n)
    (gd : GatherDims (⟨2, ![n, q]⟩ : Shape) (⟨2, ![m, 1]⟩ : Shape) (⟨2, ![m, q]⟩ : Shape))
    (ho : gd.offsetDims = [1]) (hc : gd.collapsedSliceDims = [0]) (hob : gd.operandBatchingDims = [])
    (hsb : gd.startIndicesBatchingDims = []) (hm : gd.startIndexMap = [0]) (hv : gd.indexVectorDim = 1)
    (hs : gd.sliceSizes = ![1, q])
    (sd : ScatterDims (⟨2, ![n, q]⟩ : Shape) (⟨2, ![m, 1]⟩ : Shape) (⟨2, ![m, q]⟩ : Shape))
    (hu : sd.updateWindowDims = [1]) (hi : sd.insertedWindowDims = [0]) (hsd : sd.scatterDimsToOperandDims = [0])
    (hsv : sd.indexVectorDim = 1)
    (hz : (⟨0, ![]⟩ : Shape).BroadcastsInDim ⟨2, ![n, q]⟩ (![] : Fin 0 → Fin 2))
    (hcol : (⟨1, ![m]⟩ : Shape).BroadcastsInDim ⟨2, ![m, 1]⟩ (![0] : Fin 1 → Fin 2))
    (hwid : (⟨2, ![m, 1]⟩ : Shape).BroadcastsInDim ⟨2, ![m, q]⟩ (![0, 1] : Fin 2 → Fin 2))
    (hrow : (⟨1, ![q]⟩ : Shape).BroadcastsInDim ⟨2, ![1, q]⟩ (![1] : Fin 1 → Fin 2))
    (hrep : (⟨2, ![1, q]⟩ : Shape).BroadcastsInDim ⟨2, ![n, q]⟩ (![0, 1] : Fin 2 → Fin 2))
    (H : FVec Ideal (⟨2, ![n, q]⟩ : Shape) .f32) (ws wc : IVec (⟨2, ![m, 1]⟩ : Shape) 32)
    (nrm : FVec Ideal (⟨1, ![m]⟩ : Shape) .f32) (b : FVec Ideal (⟨1, ![q]⟩ : Shape) .f32) (v : Fin n) (j : Fin q) :
    addf
        (Host.scatterAdd (F := Ideal) sd
          (broadcastInDim (⟨2, ![n, q]⟩ : Shape) ![] hz (constant (F := Ideal) (⟨0, ![]⟩ : Shape) .f32 0x00000000#32)) wc
          (mulf (Host.gather gd H ws)
            (broadcastInDim (⟨2, ![m, q]⟩ : Shape) ![0, 1] hwid (broadcastInDim (⟨2, ![m, 1]⟩ : Shape) ![0] hcol nrm))))
        (broadcastInDim (⟨2, ![n, q]⟩ : Shape) ![0, 1] hrep (broadcastInDim (⟨2, ![1, q]⟩ : Shape) ![1] hrow b)) (ix2 v j)
      = (0 + ∑ e ∈ Finset.univ.filter (fun e : Fin m => (wc (ix2 e (0 : Fin 1))).toInt = (v.val : Int)),
              H (ix2 (RowOps.clampRow n hn (ws (ix2 e (0 : Fin 1)))) j) * nrm (ix1 e))
          + b (ix1 j) := by
  rw [addf_apply, RowOps.hostScatterAdd_rows_apply sd hu hi hsd hsv, Broadcasts.scalar_apply, constant_apply,
    Ideal.ofBits_zero_f32, Broadcasts.repeat_apply, Broadcasts.row_apply]
  congr 2
  refine Finset.sum_congr rfl fun e _ => ?_
  rw [mulf_apply, RowOps.gather_rows_apply gd ho hc hob hsb hm hv hs hn, Broadcasts.widen_apply, Broadcasts.column_apply]

/-! ## The program's stages that carry the graph, as the graph's arrays -/

/-- the edges' source words: row 0 of the edge list, the self loops appended -/
abbrev srcWords (x1 : (⟨S2x1600000, .i32⟩ : BufTy).Contents (Elt Ideal)) : IVec Gcn.SE 32 :=
  Gcn.endpointWords ![0, 0] slices_S2x1600000_S1x1600000_0_0 shapeCasts_S1x1600000_S1600000
    concatenates_S1600000_S100000_S1700000_d0 x1

/-- the edges' target words: row 1 of the edge list, the self loops appended -/
abbrev tgtWords (x1 : (⟨S2x1600000, .i32⟩ : BufTy).Contents (Elt Ideal)) : IVec Gcn.SE 32 :=
  Gcn.endpointWords ![1, 0] slices_S2x1600000_S1x1600000_1_0 shapeCasts_S1x1600000_S1600000
    concatenates_S1600000_S100000_S1700000_d0 x1

/-- the inverse square roots of the degrees -/
abbrev dInv (x1 : (⟨S2x1600000, .i32⟩ : BufTy).Contents (Elt Ideal)) : FVec Ideal Gcn.SV .f32 :=
  Gcn.degInv bcast_S_S100000 bcast_S_S1700000 bcast_S1700000_S1700000x1_0 scatter_S100000_S1700000x1_S1700000_n_0_0_1
    (tgtWords x1)

/-- the edges scattered onto a node -/
abbrev into (x1 : (⟨S2x1600000, .i32⟩ : BufTy).Contents (Elt Ideal)) : Fin 100000 → Finset (Fin 1700000) :=
  Gcn.edgesInto bcast_S1700000_S1700000x1_0 (tgtWords x1)

/-- the node a gather reads for an edge's source word -/
abbrev srcNode (x1 : (⟨S2x1600000, .i32⟩ : BufTy).Contents (Elt Ideal)) : Fin 1700000 → Fin 100000 :=
  Gcn.node bcast_S_S1700000 bcast_S1700000_S1700000x1_0 (srcWords x1)

/-- the node a gather reads for an edge's target word -/
abbrev tgtNode (x1 : (⟨S2x1600000, .i32⟩ : BufTy).Contents (Elt Ideal)) : Fin 1700000 → Fin 100000 :=
  Gcn.node bcast_S_S1700000 bcast_S1700000_S1700000x1_0 (tgtWords x1)

/-- a node's factor -/
abbrev dAt (x1 : (⟨S2x1600000, .i32⟩ : BufTy).Contents (Elt Ideal)) : Fin 100000 → EReal :=
  fun p => dInv x1 (ix1 p)

section Stages
variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x40, .f32⟩ : BufTy).Contents (Elt Ideal)) (x5 : (⟨S40, .f32⟩ : BufTy).Contents (Elt Ideal))

theorem v3_eq : val_main_v3 (F := Ideal) x1 = srcWords x1 := rfl
theorem v6_eq : val_main_v6 (F := Ideal) x1 = tgtWords x1 := rfl

/-- Each of the four wrapped copies of the source words, and the two of the target words, is the one array. -/
theorem v21_eq : val_main_v21 (F := Ideal) x1
    = Gcn.wrapped bcast_S_S1700000 bcast_S1700000_S1700000x1_0 (srcWords x1) := rfl
theorem v36_eq : val_main_v36 (F := Ideal) x1
    = Gcn.wrapped bcast_S_S1700000 bcast_S1700000_S1700000x1_0 (srcWords x1) := rfl
theorem v62_eq : val_main_v62 (F := Ideal) x1
    = Gcn.wrapped bcast_S_S1700000 bcast_S1700000_S1700000x1_0 (srcWords x1) := rfl
theorem v77_eq : val_main_v77 (F := Ideal) x1
    = Gcn.wrapped bcast_S_S1700000 bcast_S1700000_S1700000x1_0 (srcWords x1) := rfl
theorem v28_eq : val_main_v28 (F := Ideal) x1
    = Gcn.wrapped bcast_S_S1700000 bcast_S1700000_S1700000x1_0 (tgtWords x1) := rfl
theorem v69_eq : val_main_v69 (F := Ideal) x1
    = Gcn.wrapped bcast_S_S1700000 bcast_S1700000_S1700000x1_0 (tgtWords x1) := rfl

/-- The scatters' index columns are the target words as a column. -/
theorem v42_eq : val_main_v42 (F := Ideal) x1 = Gcn.asColumn bcast_S1700000_S1700000x1_0 (tgtWords x1) := rfl
theorem v83_eq : val_main_v83 (F := Ideal) x1 = Gcn.asColumn bcast_S1700000_S1700000x1_0 (tgtWords x1) := rfl

/-- Both computations of the degrees' inverse square roots are the one vector. -/
theorem v15_eq : val_main_v15 (F := Ideal) x1 = dInv x1 := rfl
theorem v56_eq : val_main_v56 (F := Ideal) x1 = dInv x1 := rfl

end Stages

/-! ## The stages read at an entry -/

section Reads
variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x40, .f32⟩ : BufTy).Contents (Elt Ideal)) (x5 : (⟨S40, .f32⟩ : BufTy).Contents (Elt Ideal))

/-- An edge's factor in layer 1: the product of its two endpoints' factors. -/
theorem v30_apply (e : Fin 1700000) :
    val_main_v30 (F := Ideal) x1 (ix1 e) = dAt x1 (srcNode x1 e) * dAt x1 (tgtNode x1 e) := by
  unfold val_main_v30 val_main_v22 val_main_v29
  rw [v15_eq, v21_eq, v28_eq]
  exact gatherPair_apply (by decide) gather_S100000_S1700000x1_S1700000_n_0_n_n_0_1_1 rfl rfl rfl rfl rfl rfl rfl
    (dInv x1) _ _ e

/-- An edge's factor in layer 2: the same product. -/
theorem v71_apply (e : Fin 1700000) :
    val_main_v71 (F := Ideal) x1 (ix1 e) = dAt x1 (srcNode x1 e) * dAt x1 (tgtNode x1 e) := by
  unfold val_main_v71 val_main_v63 val_main_v70
  rw [v56_eq, v62_eq, v69_eq]
  exact gatherPair_apply (by decide) gather_S100000_S1700000x1_S1700000_n_0_n_n_0_1_1 rfl rfl rfl rfl rfl rfl rfl
    (dInv x1) _ _ e

/-- Row `p` of `x · W1`. -/
theorem v7_apply (p : Fin 100000) (j : Fin 64) :
    val_main_v7 (F := Ideal) x0 x2 (ix2 p j)
      = Gcn.lin1 (fun (p : Fin 100000) (k : Fin 128) => x0 (ix2 p k)) (fun (k : Fin 128) (j : Fin 64) => x2 (ix2 k j)) p j := by
  have el : ∀ k : Fin 128, lidx_main_v7 (ix2 p j) k = ix2 p k := fun k => funext fun a =>
    match a with | ⟨0, _⟩ => rfl | ⟨1, _⟩ => rfl
  have er : ∀ k : Fin 128, ridx_main_v7 (ix2 p j) k = ix2 k j := fun k => funext fun a =>
    match a with | ⟨0, _⟩ => rfl | ⟨1, _⟩ => rfl
  rw [val_main_v7_apply]
  unfold Gcn.lin1
  exact Finset.sum_congr rfl fun k _ => by rw [el, er]

end Reads

/-! ## The two layers -/

section Layers
variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x40, .f32⟩ : BufTy).Contents (Elt Ideal)) (x5 : (⟨S40, .f32⟩ : BufTy).Contents (Elt Ideal))

/-- Layer 1 before the rectifier, over the program's own stages. -/
theorem v46_apply (v : Fin 100000) (j : Fin 64) :
    val_main_v46 (F := Ideal) x0 x1 x2 x3 (ix2 v j)
      = (0 + ∑ e ∈ into x1 v, val_main_v7 (F := Ideal) x0 x2 (ix2 (srcNode x1 e) j) * val_main_v30 (F := Ideal) x1 (ix1 e))
          + x3 (ix1 j) := by
  unfold val_main_v46 val_main_v45 val_main_v44 val_main_v43 val_main_v41 val_main_cst_8 val_main_v40 val_main_v39
    val_main_v38 val_main_v37
  rw [v42_eq, v36_eq]
  exact layer_apply (by decide) gather_S100000x64_S1700000x1_S1700000x64_1_0_n_n_0_1_164 rfl rfl rfl rfl rfl rfl rfl
    scatter_S100000x64_S1700000x1_S1700000x64_1_0_0_1 rfl rfl rfl rfl _ _ _ _ _
    (val_main_v7 (F := Ideal) x0 x2) _ _ (val_main_v30 (F := Ideal) x1) x3 v j

/-- Layer 1 before the rectifier. -/
theorem lay1_apply (v : Fin 100000) (j : Fin 64) :
    val_main_v46 (F := Ideal) x0 x1 x2 x3 (ix2 v j)
      = Gcn.refLay1 (into x1) (srcNode x1) (tgtNode x1) (dAt x1)
          (fun (p : Fin 100000) (k : Fin 128) => x0 (ix2 p k)) (fun (k : Fin 128) (j : Fin 64) => x2 (ix2 k j))
          (fun (j : Fin 64) => x3 (ix1 j)) v j := by
  rw [v46_apply]
  unfold Gcn.refLay1
  refine congrArg (· + x3 (ix1 j)) (congrArg (0 + ·) (Finset.sum_congr rfl fun e _ => ?_))
  rw [v7_apply, v30_apply]

/-- Layer 1: the rectifier is the maximum with zero. -/
theorem hid_apply (v : Fin 100000) (j : Fin 64) :
    val_main_v47 (F := Ideal) x0 x1 x2 x3 (ix2 v j)
      = Gcn.refHid (into x1) (srcNode x1) (tgtNode x1) (dAt x1)
          (fun (p : Fin 100000) (k : Fin 128) => x0 (ix2 p k)) (fun (k : Fin 128) (j : Fin 64) => x2 (ix2 k j))
          (fun (j : Fin 64) => x3 (ix1 j)) v j := by
  unfold val_main_v47 val_main_call1_v0 val_main_call1_cst Gcn.refHid
  rw [maximumf_apply, Broadcasts.scalar_apply, constant_apply, Ideal.ofBits_zero_f32, lay1_apply]

/-- Row `v` of `h · W2`. -/
theorem lin2_apply (v : Fin 100000) (j' : Fin 40) :
    val_main_v48 (F := Ideal) x0 x1 x2 x3 x4 (ix2 v j')
      = Gcn.refLin2 (into x1) (srcNode x1) (tgtNode x1) (dAt x1)
          (fun (p : Fin 100000) (k : Fin 128) => x0 (ix2 p k)) (fun (k : Fin 128) (j : Fin 64) => x2 (ix2 k j))
          (fun (j : Fin 64) => x3 (ix1 j)) (fun (j : Fin 64) (j' : Fin 40) => x4 (ix2 j j')) v j' := by
  have el : ∀ k : Fin 64, lidx_main_v48 (ix2 v j') k = ix2 v k := fun k => funext fun a =>
    match a with | ⟨0, _⟩ => rfl | ⟨1, _⟩ => rfl
  have er : ∀ k : Fin 64, ridx_main_v48 (ix2 v j') k = ix2 k j' := fun k => funext fun a =>
    match a with | ⟨0, _⟩ => rfl | ⟨1, _⟩ => rfl
  rw [val_main_v48_apply]
  unfold Gcn.refLin2
  exact Finset.sum_congr rfl fun k _ => by rw [el, er, hid_apply]

/-- Layer 2, over the program's own stages. -/
theorem v87_apply (v : Fin 100000) (j' : Fin 40) :
    val_main_v87 (F := Ideal) x0 x1 x2 x3 x4 x5 (ix2 v j')
      = (0 + ∑ e ∈ into x1 v,
            val_main_v48 (F := Ideal) x0 x1 x2 x3 x4 (ix2 (srcNode x1 e) j') * val_main_v71 (F := Ideal) x1 (ix1 e))
          + x5 (ix1 j') := by
  unfold val_main_v87 val_main_v86 val_main_v85 val_main_v84 val_main_v82 val_main_cst_19 val_main_v81 val_main_v80
    val_main_v79 val_main_v78
  rw [v83_eq, v77_eq]
  exact layer_apply (by decide) gather_S100000x40_S1700000x1_S1700000x40_1_0_n_n_0_1_140 rfl rfl rfl rfl rfl rfl rfl
    scatter_S100000x40_S1700000x1_S1700000x40_1_0_0_1 rfl rfl rfl rfl _ _ _ _ _
    (val_main_v48 (F := Ideal) x0 x1 x2 x3 x4) _ _ (val_main_v71 (F := Ideal) x1) x5 v j'

/-- THE REFERENCE'S RESULT AT NODE `v`, FEATURE `j'`. -/
theorem result_apply (v : Fin 100000) (j' : Fin 40) :
    val_main_v87 (F := Ideal) x0 x1 x2 x3 x4 x5 (ix2 v j')
      = Gcn.refOut (into x1) (srcNode x1) (tgtNode x1) (dAt x1)
          (fun (p : Fin 100000) (k : Fin 128) => x0 (ix2 p k)) (fun (k : Fin 128) (j : Fin 64) => x2 (ix2 k j))
          (fun (j : Fin 64) => x3 (ix1 j)) (fun (j : Fin 64) (j' : Fin 40) => x4 (ix2 j j'))
          (fun (j' : Fin 40) => x5 (ix1 j')) v j' := by
  rw [v87_apply]
  unfold Gcn.refOut
  refine congrArg (· + x5 (ix1 j')) (congrArg (0 + ·) (Finset.sum_congr rfl fun e _ => ?_))
  rw [lin2_apply, v71_apply]

end Layers

end Cert.ReferenceIdeal.RefValue

end
-- ==== Proof.lean ====
/-
  A two-layer graph convolution: a kernel program and its reference compute the same function on the extended reals.

  Inputs: node features `x` (100 000 × 128), an edge list (2 × 1 600 000 words: sources, targets), weights `W1` (128 × 64),
  `W2` (64 × 40), biases `b1`, `b2`.  Both programs append the 100 000 self loops to the edge list, count each node's degree
  over the targets and take `D v` = the inverse square root of the degree where it is positive, 0 elsewhere.  One layer
  sends `h` to

      out (v, j) = ∑_{edges e into v}  (h · W)(src e, j) · D (src e) · D v  +  b j ,

  and the result is layer 2 of the rectified layer 1.  "src e" is the node a gather reads for the edge's source word
  (a negative word has the node count added, the result is clamped into the node range); "e into v" means the
  accumulating scatter adds edge `e`'s row into node `v` (its target word, read signed, is `v`; other words are dropped).

  The REFERENCE multiplies every gathered row by the edge's own factor `D (src e) · D (tgt e)` before the scatter.  The
  KERNEL scales the rows of `h · W` by `D` inside a pallas_call (blocks of 5 000 rows, the product against the whole
  weight matrix), gathers and scatters the scaled rows on the host, and scales the sum by `D v` — inside the second
  pallas_call for layer 1 (fused with the bias, the rectifier and layer 2's product), on the host for layer 2.  A change
  of float format is the identity on the extended reals, and a product accumulated into a zero block is the plain sum of
  products, so the two pallas_calls leave `(x · W1) scaled by D` and `(max(a · D + b1, 0) · W2) scaled by D` in their output
  arrays.

  The two writings agree entry by entry: a finite sum times a factor that is nonnegative and not +∞ is the sum of the
  products — true on the extended reals whatever the terms are, and `D` is such a factor —, products associate and
  commute, and an edge that is scattered into `v` names `v` when its target word is read as a gather index.  Finiteness
  of the inputs is not needed.

  The modules: `Graph` (the graph data and the two facts about it), `Bridge` (both writings over abstract index types and
  the law), `Layers` / `Region0` / `Region1` (what each pallas_call leaves in its output array), `Stretches` / `KernelValue`
  (the kernel's host operations and its result at an entry), `KernelRun` (the kernel's run with the result named),
  `RefValue` (the reference's result at an entry, over its run read one operation at a time), and the `Lib…` files
  (gathers, scatters, broadcasts, reshapes and matrix products read at an index).
-/
import proofs.«102439_j89807766159535_2_alg».proof.Defs
import proofs.«102439_j89807766159535_2_alg».proof.Proof.Gen.Kernel
import proofs.«102439_j89807766159535_2_alg».proof.Proof.Gen.Kernel.Skeleton
import proofs.«102439_j89807766159535_2_alg».proof.Proof.Gen.Kernel.Launch
import proofs.«102439_j89807766159535_2_alg».proof.Proof.Gen.Kernel.Points
import proofs.«102439_j89807766159535_2_alg».proof.Proof.Gen.Kernel.Frame
import proofs.«102439_j89807766159535_2_alg».proof.Proof.Gen.KernelIdeal
import proofs.«102439_j89807766159535_2_alg».proof.Proof.Gen.KernelIdeal.Skeleton
import proofs.«102439_j89807766159535_2_alg».proof.Proof.Gen.KernelIdeal.Launch
import proofs.«102439_j89807766159535_2_alg».proof.Proof.Gen.KernelIdeal.Points
import proofs.«102439_j89807766159535_2_alg».proof.Proof.Gen.KernelIdeal.Frame
import proofs.«102439_j89807766159535_2_alg».proof.Proof.Gen.ReferenceIdeal
import proofs.«102439_j89807766159535_2_alg».proof.Proof.Gen.Pre_finite_inputs
import proofs.«102439_j89807766159535_2_alg».proof.Proof.KernelRun
import proofs.«102439_j89807766159535_2_alg».proof.Proof.KernelValue
import proofs.«102439_j89807766159535_2_alg».proof.Proof.Region0
import proofs.«102439_j89807766159535_2_alg».proof.Proof.Region1
import proofs.«102439_j89807766159535_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- The kernel's result (the last boundary's contents of the result buffer) and the reference's (its run's term) are the
    two writings of the convolution at every entry, over one edge list, one set of weights and one degree factor; the law
    joins them. -/
theorem algebraic : Cert.algebraic_KernelIdeal_ReferenceIdeal := by
  intro m ρ m' ρ' _ hagree
  refine ⟨fun c => Cert.KernelIdeal.Gen.W7 m ρ c (Proc.devRef .tc Cert.KernelIdeal.main_v43),
    Cert.KernelIdeal.ResultRun.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v87_eq, (hagree c).1, (hagree c).2.1, (hagree c).2.2.1, (hagree c).2.2.2.1,
    (hagree c).2.2.2.2.1, (hagree c).2.2.2.2.2]
  funext i
  obtain ⟨v, j', rfl⟩ : ∃ (v : Fin 100000) (j' : Fin 40), i = ix2 v j' := ⟨i 0, i 1, eq_ix2 i⟩
  beta_reduce
  rw [Cert.ReferenceIdeal.RefValue.result_apply,
    Cert.KernelIdeal.Result.result_apply m ρ c Cert.KernelIdeal.Layer1.result Cert.KernelIdeal.Layer2.result]
  exact (Gcn.kerOut_eq_refOut (Cert.KernelIdeal.Result.into m c) (Cert.KernelIdeal.Result.srcNode m c)
    (Gcn.node Cert.KernelIdeal.Facts₀.bcast_S_S1700000 Cert.KernelIdeal.Facts₀.bcast_S1700000_S1700000x1_0
      (Cert.KernelIdeal.Result.tgtWords m c))
    (Cert.KernelIdeal.Result.dAt m c) (Cert.KernelIdeal.Result.xAt m c) (Cert.KernelIdeal.Result.w1At m c)
    (Cert.KernelIdeal.Result.b1At m c) (Cert.KernelIdeal.Result.w2At m c) (Cert.KernelIdeal.Result.b2At m c)
    (fun p => Gcn.degInv_nonneg_ne_top _ _ _ _ _ p)
    (fun p e he => Gcn.node_of_mem_edgesInto _ _ _ p e he) v j').symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
